-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S128x128 : Shape := ⟨2, ![128, 128]⟩
abbrev S256x4096 : Shape := ⟨2, ![256, 4096]⟩
abbrev S256x1 : Shape := ⟨2, ![256, 1]⟩
abbrev S8x128 : Shape := ⟨2, ![8, 128]⟩
abbrev S256 : Shape := ⟨1, ![256]⟩
abbrev S1 : Shape := ⟨1, ![1]⟩
abbrev S1x1 : Shape := ⟨2, ![1, 1]⟩
abbrev S_ : Shape := ⟨0, ![]⟩
abbrev S1x4096 : Shape := ⟨2, ![1, 4096]⟩
abbrev S32x128 : Shape := ⟨2, ![32, 128]⟩
abbrev S1024x4096 : Shape := ⟨2, ![1024, 4096]⟩
abbrev S1024x1 : Shape := ⟨2, ![1024, 1]⟩
abbrev S1x256 : Shape := ⟨2, ![1, 256]⟩
abbrev S1024x256 : Shape := ⟨2, ![1024, 256]⟩
abbrev S1024 : Shape := ⟨1, ![1024]⟩

abbrev nBuf : Space → Nat
  | .hbm => 29
  | .vmem => 28
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .hbm, ⟨3, _⟩ => ⟨S4096x1, .f32⟩
  | .hbm, ⟨4, _⟩ => ⟨S128x128, .f32⟩
  | .hbm, ⟨5, _⟩ => ⟨S4096x4096, .bf16⟩
  | .hbm, ⟨6, _⟩ => ⟨S4096x4096, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x4096, .f32⟩
  | .hbm, ⟨12, _⟩ => ⟨S32x128, .f32⟩
  | .hbm, ⟨13, _⟩ => ⟨S32x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S8x128, .f32⟩
  | .local _ .vmem, ⟨9, _⟩ => ⟨S8x128, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S1024x4096, .bf16⟩
  | .local _ .vmem, ⟨15, _⟩ => ⟨S1024x4096, .bf16⟩
  | .local _ .vmem, ⟨16, _⟩ => ⟨S256x4096, .bf16⟩
  | .local _ .vmem, ⟨17, _⟩ => ⟨S256x4096, .bf16⟩
  | .local _ .vmem, ⟨18, _⟩ => ⟨S1024x1, .f32⟩
  | .local _ .vmem, ⟨19, _⟩ => ⟨S1024x1, .f32⟩
  | .local _ .vmem, ⟨20, _⟩ => ⟨S1x256, .f32⟩
  | .local _ .vmem, ⟨21, _⟩ => ⟨S1x256, .f32⟩
  | .local _ .vmem, ⟨22, _⟩ => ⟨S8x128, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S1x1, .f32⟩
  | .local _ .vmem, ⟨27, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_22 : BitVec 32 := 0#32
  let v49 : BitVec 1 := Scalar.cmpi .ne v48 c0_i32_22
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  inb_S256x1_S256x1_0_0 : ∀ a, (![0, 0] : Fin 2 → Nat) a + S256x1.size a ≤ S256x1.size a
  h_S256x1 : 0 < S256x1.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  reducesTo_S128x128_S_d0_1 : S128x128.ReducesTo [0, 1] S_
  h_S_ : 0 < S_.numel
  shapeCasts_S4096x1_S1x4096 : S4096x1.ShapeCasts S1x4096
  inb_S1x1_S1x1_0_0 : ∀ a, (![0, 0] : Fin 2 → Nat) a + S1x1.size a ≤ S1x1.size a
  h_S1x1 : 0 < S1x1.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  shapeCasts_S256x4096_S256x4096 : S256x4096.ShapeCasts S256x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  reduces_S1024x256_S1024 : S1024x256.Reduces [1] S1024
  shapeCasts_S1024_S1024x1 : S1024.ShapeCasts S1024x1
  reduces_S1024x1_S1 : S1024x1.Reduces [0] S1
  iota_S1024x256_d0_w32 : S1024x256.Iotas .tc 32 [0]
  iota_S1024x256_d1_w32 : S1024x256.Iotas .tc 32 [1]
  reducesTo_S32x128_S_d0_1 : S32x128.ReducesTo [0, 1] S_
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x4096.size a ≤ S4096x4096.size a
  hwx0_6 : ∀ i : grid0.Coords, EltTy.bits .bf16 = 32 ∨ (Rect.block (s := S4096x4096) S256x4096.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S32x128.size a
  hwx1_4 : ∀ i : grid1.Coords, EltTy.bits .f32 = 32 ∨ (Rect.block (s := S32x128) S8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S32x128.size a
  hwx1_5 : ∀ i : grid1.Coords, EltTy.bits .f32 = 32 ∨ (Rect.block (s := S32x128) S8x128.size (cc1_transform_5 i) (hinb1_5 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S256x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S256x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_3) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x4096, .f32⟩
  | .hbm, ⟨15, _⟩ => ⟨S4096x4096, .f32⟩
  | .hbm, ⟨16, _⟩ => ⟨S4096x1, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  reducesTo_S4096x4096_S4096_d1 : S4096x4096.ReducesTo [1] S4096
  transposes_S4096x4096_S4096x4096_1_0 : S4096x4096.Transposes [1, 0] S4096x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Shared.lean ====
import proofs.«124657_j17093969838495_2_alg».proof.Proof.Gen.Kernel.Launch
import proofs.«124657_j17093969838495_2_alg».proof.Proof.Gen.Kernel.Skeleton
import proofs.«124657_j17093969838495_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The two pallas_calls' windows read as blocks of the arrays a region is entered with, the grid
    positions at which the second kernel's two branches are taken, and the staging memrefs the
    pipeline hands each body.  Everything is stated at a parameter `V`: the contents of the
    TensorCore's buffers when the region is entered. -/

section
variable (V : (c : Dev nD) → (b : Ref sig .tc) → Buf (Elt F) ((c : Thread nD τ).loc b))

/-- Window `w` of the row-statistics call at grid point `t`: the 256 rows `256 t … 256 t + 255` of
    its array (one column for the norms, an 8×128 tile for the partial sum). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window `w` of the Gram call at grid point `t = 16 i + j`: rows `1024 i …` of the first operand and
    of the first norm column, rows `256 j …` of the second operand, columns `256 j …` of the norm row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## Where the Gram kernel's two branches are taken -/

/-- The first branch (both accumulators reset) is taken when the column-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (the accumulators written out) is taken when the column-tile coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column tile the two output windows are idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The staging memrefs of the Gram call, as the pipeline passes them -/

abbrev VO1_4 : View sig .tc .vmem S8x128 .f32 := (Memref.whole cc1_stg4_0 : Memref sig .tc .vmem S8x128 .f32).view
abbrev VO1_5 : View sig .tc .vmem S8x128 .f32 := (Memref.whole cc1_stg5_0 : Memref sig .tc .vmem S8x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
/-- The two 1×1 accumulators the Gram kernel keeps from one column tile to the next. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

end Cert.Kernel.Hand

end
-- ==== Proof.K.R0.lean ====
import proofs.«124657_j17093969838495_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The row-statistics kernel at one grid point.  From its two 256×4096 input blocks `x`, `y` it
    stores: the row sums of `x²` and of `y²` (two 256×1 columns), the sum of all `(x − y)²`
    spread over an 8×128 tile, and `x`, `y` themselves in the narrower float format. -/

abbrev rA : Rect S256x4096 := Rect.unit (s := S256x4096) ![0, 0] S256x4096.size inb_S256x4096_S256x4096_0_0
abbrev rB : Rect S256x1 := Rect.unit (s := S256x1) ![0, 0] S256x1.size inb_S256x1_S256x1_0_0
abbrev rC : Rect S8x128 := Rect.unit (s := S8x128) ![0, 0] S8x128.size inb_S8x128_S8x128_0_0

/-- Row sums of the squares of the first block. -/
def out0_2 (x0 : Vec F S256x4096 .f32) : Vec F S256x1 .f32 := View.canon [⟨rB, k0_pay2 (View.ld x0 rA)⟩]
/-- Row sums of the squares of the second block. -/
def out0_3 (x1 : Vec F S256x4096 .f32) : Vec F S256x1 .f32 := View.canon [⟨rB, k0_pay3 (View.ld x1 rA)⟩]
/-- The block's sum of squared differences, in every cell of the tile. -/
def out0_4 (x0 x1 : Vec F S256x4096 .f32) : Vec F S8x128 .f32 := View.canon [⟨rC, k0_pay1 (View.ld x0 rA) (View.ld x1 rA)⟩]
/-- The first block in the narrow format. -/
def out0_5 (x0 : Vec F S256x4096 .f32) : Vec F S256x4096 .bf16 := View.canon [⟨rA, k0_pay4 (View.ld x0 rA)⟩]
/-- The second block in the narrow format. -/
def out0_6 (x1 : Vec F S256x4096 .f32) : Vec F S256x4096 .bf16 := View.canon [⟨rA, k0_pay5 (View.ld x1 rA)⟩]

theorem coverB (p0 : Vec F S256x1 .f32) (y : S256x1.Idx) :
    ∃ pc ∈ ([⟨rB, p0⟩] : List (View.Piece (Elt F) S256x1 .f32)), y ∈ pc.1.set :=
  View.cover_of_tiled [⟨rB, p0⟩] S256x1.size (by rfl) y
theorem coverC (p0 : Vec F S8x128 .f32) (y : S8x128.Idx) :
    ∃ pc ∈ ([⟨rC, p0⟩] : List (View.Piece (Elt F) S8x128 .f32)), y ∈ pc.1.set :=
  View.cover_of_tiled [⟨rC, p0⟩] S8x128.size (by rfl) y
theorem coverA (p0 : Vec F S256x4096 .bf16) (y : S256x4096.Idx) :
    ∃ pc ∈ ([⟨rA, p0⟩] : List (View.Piece (Elt F) S256x4096 .bf16)), y ∈ pc.1.set :=
  View.cover_of_tiled [⟨rA, p0⟩] S256x4096.size (by rfl) y

set_option maxHeartbeats 2000000 in
/-- The kernel on whole staging memrefs: the inputs keep their contents, each output ends at the
    function of the inputs named above. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S8x128 .f32) (harg5 : arg5.IsWhole) (arg6 : Memref sig .tc .vmem S256x4096 .bf16) (harg6 : arg6.IsWhole) (arg7 : Memref sig .tc .vmem S256x4096 .bf16) (harg7 : arg7.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)
            ∗ owns (c : Thread nD τ) arg6 fullShare (out0_5 x0) ∗ owns (c : Thread nD τ) arg7 fullShare (out0_6 x1)) -∗ K ⟨⟩))
      ⊢ wp frame (wpE (defs₀ (F := F)) Variants.none c none) E (cc0__rowstats_kernel i arg1 harg1 arg2 harg2 arg3 harg3 arg4 harg4 arg5 harg5 arg6 harg6 arg7 harg7) K := by
  simp only [cc0__rowstats_kernel_eq_skeleton]; unfold cc0__rowstats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  isplitl [H3]
  · iexists _; isplitr
    swap; · iexact H3
    ipureintro
    exact View.read_writes_eq_canon _ _ _ (coverB _)
  isplitl [H4]
  · iexists _; isplitr
    swap; · iexact H4
    ipureintro
    exact View.read_writes_eq_canon _ _ _ (coverC _)
  isplitl [H5]
  · iexists _; isplitr
    swap; · iexact H5
    ipureintro
    exact View.read_writes_eq_canon _ _ _ (coverA _)
  iexists _; isplitr
  swap; · iexact H6
  ipureintro
  exact View.read_writes_eq_canon _ _ _ (coverA _)

section
variable (V : (c : Dev nD) → (b : Ref sig .tc) → Buf (Elt F) ((c : Thread nD τ).loc b))

/-- The proof data of the row-statistics call: after point `t` the inputs' buffers hold their blocks
    and each output's buffer the kernel's function of the two input blocks. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
    | ⟨5, _⟩ => out0_5 (iblk0 V c 0 t)
    | ⟨6, _⟩ => out0_6 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1A.lean ====
import proofs.«124657_j17093969838495_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at a first column tile (`j = 0`): both accumulators are reset to zero and then
    take this tile's sum of distances and of diagonal distances; nothing is written out. -/

set_option maxHeartbeats 4000000 in
noncomputable def kernelRun1_A (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S1024x4096 .bf16) (x1 : Vec F S256x4096 .bf16) (x2 : Vec F S1024x1 .f32) (x3 : Vec F S1x256 .f32) :
    Σ' (LS0 : List (View.Piece (Elt F) S1x1 .f32)), { LS1 : List (View.Piece (Elt F) S1x1 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, fun xi4 xi5 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.R1B.lean ====
import proofs.«124657_j17093969838495_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at a middle column tile (`0 < j < 15`): both accumulators take this tile's sums on
    top of what the tile before left; nothing is written out. -/

set_option maxHeartbeats 4000000 in
noncomputable def kernelRun1_B (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S1024x4096 .bf16) (x1 : Vec F S256x4096 .bf16) (x2 : Vec F S1024x1 .f32) (x3 : Vec F S1x256 .f32) (xs0 xs1 : Vec F S1x1 .f32) :
    Σ' (LS0 : List (View.Piece (Elt F) S1x1 .f32)), { LS1 : List (View.Piece (Elt F) S1x1 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, fun xi4 xi5 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.R1C.lean ====
import proofs.«124657_j17093969838495_2_alg».proof.Proof.K.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at the last column tile (`j = 15`): both accumulators take this tile's sums on top
    of what the tile before left, and each finished accumulator is spread over its 8×128 output tile. -/

set_option maxHeartbeats 4000000 in
noncomputable def kernelRun1_C (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S1024x4096 .bf16) (x1 : Vec F S256x4096 .bf16) (x2 : Vec F S1024x1 .f32) (x3 : Vec F S1x256 .f32) (xs0 xs1 : Vec F S1x1 .f32) :
    Σ' (L4 : List (View.Piece (Elt F) S8x128 .f32)) (L5 : List (View.Piece (Elt F) S8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.K.Body1.lean ====
import proofs.«124657_j17093969838495_2_alg».proof.Proof.K.R1A
import proofs.«124657_j17093969838495_2_alg».proof.Proof.K.R1B
import proofs.«124657_j17093969838495_2_alg».proof.Proof.K.R1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What the Gram call's two accumulators and two output tiles hold after each grid point
    `t = 16 i + j`, by recursion on `t`: at `j = 0` the accumulators restart from zero, at every
    other `j` they continue from what the point before left, and at `j = 15` the output tiles take
    the finished accumulators.  Then the proof data of the call over that recursion, and the
    kernel body's triple at every point. -/

/-! ## What each case's stores leave, read back -/
theorem scover1_A_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) (y : S1x1.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S1x1.size (by sl_kernel_rfl) y
def sout1_A_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)
theorem scover1_A_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) (y : S1x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1x1.size (by sl_kernel_rfl) y
def sout1_A_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) : Vec F S1x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

theorem scover1_B_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S1x1.size (by sl_kernel_rfl) y
def sout1_B_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)
theorem scover1_B_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S1x1.size (by sl_kernel_rfl) y
def sout1_B_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

theorem cover1_C_4 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S8x128.size (by sl_kernel_rfl) y
def out1_C_4 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S8x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)
theorem cover1_C_5 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S8x128.size (by sl_kernel_rfl) y
def out1_C_5 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S8x128 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)
theorem scover1_C_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S1x1.size (by sl_kernel_rfl) y
def sout1_C_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)
theorem scover1_C_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S1x1.size (by sl_kernel_rfl) y
def sout1_C_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-- What an output tile's buffer is taken to hold at a point that stores nothing into it (never consulted:
    the window is idle there and not written back). -/
def idle4 : Vec F S8x128 .f32 := VO1_4.read (Elt F) (VO1_4.writes (Elt F) VO1_4.junk [])
def idle5 : Vec F S8x128 .f32 := VO1_5.read (Elt F) (VO1_5.writes (Elt F) VO1_5.junk [])

section
variable (V : (c : Dev nD) → (b : Ref sig .tc) → Buf (Elt F) ((c : Thread nD τ).loc b))

/-- Output tile of the distance sums, output tile of the diagonal sums, the two accumulators. -/
abbrev Outs1 (F : FTy → Type) [FloatOps F] : Type := Vec F S8x128 .f32 × Vec F S8x128 .f32 × Vec F S1x1 .f32 × Vec F S1x1 .f32

def stepA (c : Dev nD) (t : Fin cfg1.N) (h0 : t.val % 16 = 0) (h1 : ¬t.val % 16 = 15) : Outs1 F :=
  (idle4, idle5,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t))
def stepB (c : Dev nD) (t : Fin cfg1.N) (h0 : ¬t.val % 16 = 0) (h1 : ¬t.val % 16 = 15) (prev : Outs1 F) : Outs1 F :=
  (idle4, idle5,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) prev.2.2.1 prev.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) prev.2.2.1 prev.2.2.2)
def stepC (c : Dev nD) (t : Fin cfg1.N) (h0 : ¬t.val % 16 = 0) (h1 : t.val % 16 = 15) (prev : Outs1 F) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2)

/-- The accumulation over the grid points in their order. -/
def outsAt1 (c : Dev nD) : (n : ℕ) → n < cfg1.N → Outs1 F
  | 0, hn => stepA V c ⟨0, hn⟩ (Nat.zero_mod _) (by intro h; simp at h)
  | n + 1, hn =>
    if h0 : (n + 1) % 16 = 0 then
      if h1 : (n + 1) % 16 = 15 then False.elim (by omega)
      else stepA V c ⟨n + 1, hn⟩ h0 h1
    else
      if h1 : (n + 1) % 16 = 15 then stepC V c ⟨n + 1, hn⟩ h0 h1 (outsAt1 c n (Nat.lt_of_succ_lt hn))
      else stepB V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = stepA V c t h0 h1 := by
  obtain ⟨n, hn⟩ := t
  cases n with
  | zero => rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = stepB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = stepC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between grid points: the two accumulators at what the point before left -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.2.1 ∗ owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.2.1 ∗ owns (c : Thread nD τ) scM1_1 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.2.1 ∗ owns (c : Thread nD τ) scM1_1 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

end

end Cert.Kernel.Hand

end
-- ==== Proof.K.Body1b.lean ====
import proofs.«124657_j17093969838495_2_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel's triple at every grid point: which of the three cases the point is in is read off
    its position modulo 16; the accumulators go in at what the point before left (at anything at the
    very first point) and come back at this point's values. -/

section
variable (V : (c : Dev nD) → (b : Ref sig .tc) → Buf (Elt F) ((c : Thread nD τ).loc b))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stepA sout1_A_0 sout1_A_1; (try dsimp only)
    by_cases hz : t.val = 0
    · rw [PhiS1_castSucc V c t, PhiS1_zero V c _ _ hz, PhiA1_eq]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by intro hz; rw [hz] at h0; exact h0 (Nat.zero_mod _)
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stepC out1_C_4 out1_C_5 sout1_C_0 sout1_C_1; (try dsimp only)
      rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold stepB sout1_B_0 sout1_B_1; (try dsimp only)
      rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the call is the invariant before its first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HR0, HR1, HR2, HR3, HR4, HR5, HR6, HR7, HR8, HR9, HR10, HR11, HR12, HR13, HS0, HS1⟩, Hg⟩
  isplitl [HR0 HR1 HR2 HR3 HR4 HR5 HR6 HR7 HR8 HR9 HR10 HR11 HR12 HR13 HS0 HS1]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hg

end

end Cert.Kernel.Hand

end
-- ==== Proof.K.Run.lean ====
import proofs.«124657_j17093969838495_2_alg».proof.Proof.K.R0
import proofs.«124657_j17093969838495_2_alg».proof.Proof.K.Body1b
import proofs.«124657_j17093969838495_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The whole run: the row-statistics call, five host operations, the Gram call, fifteen host
    operations.  The contents of every unscoped buffer are followed from the launch memory through
    the four items; at the end every such buffer holds the last valuation, `B4`. -/

variable (m : (ℓ : Loc nD τ sig) → Buf (Elt F) ℓ) (ρ : Dev nD → PrngReg)

/-- Core `c`'s buffers at launch. -/
abbrev B0 : Dev nD → Valuation τ sig (Elt F) := fun c b => m (c, b)
abbrev BV0 : (c : Dev nD) → (b : Ref sig .tc) → Buf (Elt F) ((c : Thread nD τ).loc b) := fun c b => B0 m c (Proc.devRef .tc b)
/-- After the row-statistics call: its five result arrays at what its write-backs leave. -/
def B1 (c : Dev nD) : Valuation τ sig (Elt F) :=
  Pipeline.withArrays spec0 c (B0 m c) fun w => (dat0 (BV0 m) c).arrAt w cfg0.N
theorem B1_arr (c : Dev nD) (w : Fin cfg0.W) :
    B1 m c (Proc.devRef .tc (Pipeline.arrRef spec0 w)) = (dat0 (BV0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev BV1 : (c : Dev nD) → (b : Ref sig .tc) → Buf (Elt F) ((c : Thread nD τ).loc b) := fun c b => B1 m c (Proc.devRef .tc b)
theorem hF0 (c : Dev nD) (w : Fin cfg0.W) : (dat0 (BV0 m) c).arrAt w cfg0.N = BV1 m c (Pipeline.arrRef spec0 w) :=
  (B1_arr m c w).symm
theorem hrest0 (c : Dev nD) : ∀ b, b ∉ Finset.univ.image (Pipeline.arrRef spec0) → BV1 m c b = BV0 m c b :=
  fun b hb => B1_of_ne m c b fun w e => hb (Finset.mem_image.mpr ⟨w, Finset.mem_univ _, e⟩)
/-- After the first host stretch (the partial sums added up and divided, the norm column recast as a row). -/
abbrev B2 (c : Dev nD) : Valuation τ sig (Elt F) := StableHlo.after hostOps1 (B1 m c)
abbrev BV2 : (c : Dev nD) → (b : Ref sig .tc) → Buf (Elt F) ((c : Thread nD τ).loc b) := fun c b => B2 m c (Proc.devRef .tc b)
/-- After the Gram call: its two result arrays at what its write-backs leave. -/
def B3 (c : Dev nD) : Valuation τ sig (Elt F) :=
  Pipeline.withArrays spec1 c (B2 m c) fun w => (dat1 (BV2 m) c).arrAt w cfg1.N
theorem B3_arr (c : Dev nD) (w : Fin cfg1.W) :
    B3 m c (Proc.devRef .tc (Pipeline.arrRef spec1 w)) = (dat1 (BV2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev BV3 : (c : Dev nD) → (b : Ref sig .tc) → Buf (Elt F) ((c : Thread nD τ).loc b) := fun c b => B3 m c (Proc.devRef .tc b)
theorem hF1 (c : Dev nD) (w : Fin cfg1.W) : (dat1 (BV2 m) c).arrAt w cfg1.N = BV3 m c (Pipeline.arrRef spec1 w) :=
  (B3_arr m c w).symm
theorem hrest1 (c : Dev nD) : ∀ b, b ∉ Finset.univ.image (Pipeline.arrRef spec1) → BV3 m c b = BV2 m c b :=
  fun b hb => B3_of_ne m c b fun w e => hb (Finset.mem_image.mpr ⟨w, Finset.mem_univ _, e⟩)
/-- After the second host stretch: the last valuation. -/
abbrev B4 (c : Dev nD) : Valuation τ sig (Elt F) := StableHlo.after hostOps2 (B3 m c)

/-! ### The two argument arrays reach the end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := (B1_arr m c 0).trans (((dat0 (BV0 m) c).arrAt_in 0 rfl _).trans (A_eq0 (BV0 m) c 0))
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 1).trans (((dat0 (BV0 m) c).arrAt_in 1 rfl _).trans (A_eq0 (BV0 m) c 1))
    _ = m ((c : Thread nD τ).loc main_arg1) := rfl

/-! ## The proof data of both calls, and the state threaded between the items -/

def pdats : (p : Fin 2) → (c : Dev nD) → Dat τ (Elt F) Unit ℕ (Pipeline.UD sig nD τ) ℕ (Pipeline.pin (pcfgs (F := F)) adm p) c
  | ⟨0, _⟩ => fun c => dat0 (BV0 m) c
  | ⟨1, _⟩ => fun c => dat1 (BV2 m) c
abbrev Lv0 : GSem nD τ sig → Finset Unit := fun _ => ∅
abbrev lv0 : GSem nD τ sig → Unit → ℕ := fun _ _ => 0
/-- What rides beside the buffers: the core's generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Variants.none Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

set_option backward.isDefEq.respectTransparency.types false in
/-- The row-statistics call as an item: entered with the buffers at `B0`, left with them at `B1`. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (BV0 m) c).loose
  hwaits := Pipeline.hwaits_of_owed_zero _ _ _ _ Lv0 lv0 0 fun _ _ => rfl
  pre c := iprop(StableHlo.held (c : Thread nD τ) (Pipeline.ucRefs τ sig) (B0 m c) ∗ Rst c)
  post c := iprop(StableHlo.held (c : Thread nD τ) (Pipeline.ucRefs τ sig) (B1 m c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (BV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (BV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (BV0 m c) (BV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram call as an item: entered with the buffers at `B2`, left with them at `B3`. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (BV2 m) c).loose
  hwaits := Pipeline.hwaits_of_owed_zero _ _ _ _ Lv0 lv0 1 fun _ _ => rfl
  pre c := iprop(StableHlo.held (c : Thread nD τ) (Pipeline.ucRefs τ sig) (B2 m c) ∗ Rst c)
  post c := iprop(StableHlo.held (c : Thread nD τ) (Pipeline.ucRefs τ sig) (B3 m c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (BV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (BV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (BV2 m) c)
    unfold Pipeline.ΦA
    iintro ⟨Hp, -, Hr⟩
    isplitl [Hr]; · iexact Hr
    iexact Hp
  hout c := by
    refine BIBase.Entails.trans (hout1 (BV2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (BV2 m c) (BV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four items in order. -/
abbrev items : List (Pipeline.Seg (pcfgs (F := F)) adm (pdats m) () defs₀ Variants.none Lv0 lv0) :=
  [ .region (reg0 m),
    .host (hseg hostOps1 hostOps1_sub hostOps1_fresh (B1 m)),
    .region (reg1 m),
    .host (hseg hostOps2 hostOps2_sub hostOps2_fresh (B3 m)) ]

set_option backward.isDefEq.respectTransparency.types false in
/-- From any memory with zero counters every weakly fair execution of @main terminates, nothing faulting,
    and every unscoped buffer ends at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj embL defs₀ Variants.none Lv0 lv0 m ρ main (items m)
    (fun c Q => by
      rewrite [main_chain c, Pipeline.Seg.run_eq_chain,
        show (items m).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun c => by
      show iprop(StableHlo.held (c : Thread nD τ) (Pipeline.ucRefs τ sig) (B4 m c) ∗ Rst c) ⊢ iprop(Tend m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lv0 lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_main_arg0 m c),
     (h c _ (mem_uc main_arg1 (by decide))).trans (B4_main_arg1 m c)⟩) (run m ρ)

end Cert.Kernel.Hand

end
-- ==== Proof.KI.Shared.lean ====
import proofs.«124657_j17093969838495_2_alg».proof.Proof.Gen.KernelIdeal.Launch
import proofs.«124657_j17093969838495_2_alg».proof.Proof.Gen.KernelIdeal.Skeleton
import proofs.«124657_j17093969838495_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The two pallas_calls' windows read as blocks of the arrays a region is entered with, the grid
    positions at which the second kernel's two branches are taken, and the staging memrefs the
    pipeline hands each body.  Everything is stated at a parameter `V`: the contents of the
    TensorCore's buffers when the region is entered. -/

section
variable (V : (c : Dev nD) → (b : Ref sig .tc) → Buf (Elt F) ((c : Thread nD τ).loc b))

/-- Window `w` of the row-statistics call at grid point `t`: the 256 rows `256 t … 256 t + 255` of
    its array (one column for the norms, an 8×128 tile for the partial sum). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window `w` of the Gram call at grid point `t = 16 i + j`: rows `1024 i …` of the first operand and
    of the first norm column, rows `256 j …` of the second operand, columns `256 j …` of the norm row. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## Where the Gram kernel's two branches are taken -/

/-- The first branch (both accumulators reset) is taken when the column-tile coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- The second branch (the accumulators written out) is taken when the column-tile coordinate is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column tile the two output windows are idle and not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_4 : ∀ t : Fin cfg1.N, cond1_1 (grid1.coords t) → cfg1.idle 4 (grid1.coords t) = false := by decide +kernel
theorem liveAt1_5 : ∀ t : Fin cfg1.N, cond1_1 (grid1.coords t) → cfg1.idle 5 (grid1.coords t) = false := by decide +kernel

/-! ## The staging memrefs of the Gram call, as the pipeline passes them -/

abbrev VO1_4 : View sig .tc .vmem S8x128 .f32 := (Memref.whole cc1_stg4_0 : Memref sig .tc .vmem S8x128 .f32).view
abbrev VO1_5 : View sig .tc .vmem S8x128 .f32 := (Memref.whole cc1_stg5_0 : Memref sig .tc .vmem S8x128 .f32).view
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x128 .f32 := win1_5.stage (cfg1.slots t 5)
abbrev hs1_5 (t : Fin cfg1.N) : (ms1_5 t).IsWhole := hstage1_5 ((cfg1.slots t 5).cast nbuf1_5)
/-- The two 1×1 accumulators the Gram kernel keeps from one column tile to the next. -/
abbrev scM1_0 : Memref sig .tc .vmem S1x1 .f32 := Memref.whole cc1_scratch0
abbrev scM1_1 : Memref sig .tc .vmem S1x1 .f32 := Memref.whole cc1_scratch1
abbrev VS1_0 : View sig .tc .vmem S1x1 .f32 := scM1_0.view
abbrev VS1_1 : View sig .tc .vmem S1x1 .f32 := scM1_1.view

end Cert.KernelIdeal.Hand

end
-- ==== Proof.KI.R0.lean ====
import proofs.«124657_j17093969838495_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The row-statistics kernel at one grid point.  From its two 256×4096 input blocks `x`, `y` it
    stores: the row sums of `x²` and of `y²` (two 256×1 columns), the sum of all `(x − y)²`
    spread over an 8×128 tile, and `x`, `y` themselves in the narrower float format. -/

abbrev rA : Rect S256x4096 := Rect.unit (s := S256x4096) ![0, 0] S256x4096.size inb_S256x4096_S256x4096_0_0
abbrev rB : Rect S256x1 := Rect.unit (s := S256x1) ![0, 0] S256x1.size inb_S256x1_S256x1_0_0
abbrev rC : Rect S8x128 := Rect.unit (s := S8x128) ![0, 0] S8x128.size inb_S8x128_S8x128_0_0

/-- Row sums of the squares of the first block. -/
def out0_2 (x0 : Vec F S256x4096 .f32) : Vec F S256x1 .f32 := View.canon [⟨rB, k0_pay2 (View.ld x0 rA)⟩]
/-- Row sums of the squares of the second block. -/
def out0_3 (x1 : Vec F S256x4096 .f32) : Vec F S256x1 .f32 := View.canon [⟨rB, k0_pay3 (View.ld x1 rA)⟩]
/-- The block's sum of squared differences, in every cell of the tile. -/
def out0_4 (x0 x1 : Vec F S256x4096 .f32) : Vec F S8x128 .f32 := View.canon [⟨rC, k0_pay1 (View.ld x0 rA) (View.ld x1 rA)⟩]
/-- The first block in the narrow format. -/
def out0_5 (x0 : Vec F S256x4096 .f32) : Vec F S256x4096 .bf16 := View.canon [⟨rA, k0_pay4 (View.ld x0 rA)⟩]
/-- The second block in the narrow format. -/
def out0_6 (x1 : Vec F S256x4096 .f32) : Vec F S256x4096 .bf16 := View.canon [⟨rA, k0_pay5 (View.ld x1 rA)⟩]

theorem coverB (p0 : Vec F S256x1 .f32) (y : S256x1.Idx) :
    ∃ pc ∈ ([⟨rB, p0⟩] : List (View.Piece (Elt F) S256x1 .f32)), y ∈ pc.1.set :=
  View.cover_of_tiled [⟨rB, p0⟩] S256x1.size (by rfl) y
theorem coverC (p0 : Vec F S8x128 .f32) (y : S8x128.Idx) :
    ∃ pc ∈ ([⟨rC, p0⟩] : List (View.Piece (Elt F) S8x128 .f32)), y ∈ pc.1.set :=
  View.cover_of_tiled [⟨rC, p0⟩] S8x128.size (by rfl) y
theorem coverA (p0 : Vec F S256x4096 .bf16) (y : S256x4096.Idx) :
    ∃ pc ∈ ([⟨rA, p0⟩] : List (View.Piece (Elt F) S256x4096 .bf16)), y ∈ pc.1.set :=
  View.cover_of_tiled [⟨rA, p0⟩] S256x4096.size (by rfl) y

set_option maxHeartbeats 2000000 in
/-- The kernel on whole staging memrefs: the inputs keep their contents, each output ends at the
    function of the inputs named above. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x1 .f32) (harg3 : arg3.IsWhole) (arg4 : Memref sig .tc .vmem S256x1 .f32) (harg4 : arg4.IsWhole) (arg5 : Memref sig .tc .vmem S8x128 .f32) (harg5 : arg5.IsWhole) (arg6 : Memref sig .tc .vmem S256x4096 .bf16) (harg6 : arg6.IsWhole) (arg7 : Memref sig .tc .vmem S256x4096 .bf16) (harg7 : arg7.IsWhole)
    (x0 x1 : Vec F S256x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0 x1)
            ∗ owns (c : Thread nD τ) arg6 fullShare (out0_5 x0) ∗ owns (c : Thread nD τ) arg7 fullShare (out0_6 x1)) -∗ K ⟨⟩))
      ⊢ wp frame (wpE (defs₀ (F := F)) Variants.none c none) E (cc0__rowstats_kernel i arg1 harg1 arg2 harg2 arg3 harg3 arg4 harg4 arg5 harg5 arg6 harg6 arg7 harg7) K := by
  simp only [cc0__rowstats_kernel_eq_skeleton]; unfold cc0__rowstats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverB _)
  isplitl [H3]
  · iexists _; isplitr
    swap; · iexact H3
    ipureintro
    exact View.read_writes_eq_canon _ _ _ (coverB _)
  isplitl [H4]
  · iexists _; isplitr
    swap; · iexact H4
    ipureintro
    exact View.read_writes_eq_canon _ _ _ (coverC _)
  isplitl [H5]
  · iexists _; isplitr
    swap; · iexact H5
    ipureintro
    exact View.read_writes_eq_canon _ _ _ (coverA _)
  iexists _; isplitr
  swap; · iexact H6
  ipureintro
  exact View.read_writes_eq_canon _ _ _ (coverA _)

section
variable (V : (c : Dev nD) → (b : Ref sig .tc) → Buf (Elt F) ((c : Thread nD τ).loc b))

/-- The proof data of the row-statistics call: after point `t` the inputs' buffers hold their blocks
    and each output's buffer the kernel's function of the two input blocks. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
    | ⟨5, _⟩ => out0_5 (iblk0 V c 0 t)
    | ⟨6, _⟩ => out0_6 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) := by dsimp only [dat0]
theorem after0_6 (c : Dev nD) (t : Fin cfg0.N) : (dat0 V c).after 6 t = out0_6 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1A.lean ====
import proofs.«124657_j17093969838495_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at a first column tile (`j = 0`): both accumulators are reset to zero and then
    take this tile's sum of distances and of diagonal distances; nothing is written out. -/

set_option maxHeartbeats 4000000 in
noncomputable def kernelRun1_A (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i)
    (x0 : Vec F S1024x4096 .bf16) (x1 : Vec F S256x4096 .bf16) (x2 : Vec F S1024x1 .f32) (x3 : Vec F S1x256 .f32) :
    Σ' (LS0 : List (View.Piece (Elt F) S1x1 .f32)), { LS1 : List (View.Piece (Elt F) S1x1 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, fun xi4 xi5 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R1B.lean ====
import proofs.«124657_j17093969838495_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at a middle column tile (`0 < j < 15`): both accumulators take this tile's sums on
    top of what the tile before left; nothing is written out. -/

set_option maxHeartbeats 4000000 in
noncomputable def kernelRun1_B (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i)
    (x0 : Vec F S1024x4096 .bf16) (x1 : Vec F S256x4096 .bf16) (x2 : Vec F S1024x1 .f32) (x3 : Vec F S1x256 .f32) (xs0 xs1 : Vec F S1x1 .f32) :
    Σ' (LS0 : List (View.Piece (Elt F) S1x1 .f32)), { LS1 : List (View.Piece (Elt F) S1x1 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, fun xi4 xi5 E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.R1C.lean ====
import proofs.«124657_j17093969838495_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel at the last column tile (`j = 15`): both accumulators take this tile's sums on top
    of what the tile before left, and each finished accumulator is spread over its 8×128 output tile. -/

set_option maxHeartbeats 4000000 in
noncomputable def kernelRun1_C (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i)
    (x0 : Vec F S1024x4096 .bf16) (x1 : Vec F S256x4096 .bf16) (x2 : Vec F S1024x1 .f32) (x3 : Vec F S1x256 .f32) (xs0 xs1 : Vec F S1x1 .f32) :
    Σ' (L4 : List (View.Piece (Elt F) S8x128 .f32)) (L5 : List (View.Piece (Elt F) S8x128 .f32)) (LS0 : List (View.Piece (Elt F) S1x1 .f32)), { LS1 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__gram_kernel i arg2 harg2 arg3 harg3 arg4 harg4 arg5 harg5 arg6 harg6 arg7 harg7 arg8 harg8 arg9 harg9) K } := by
  refine ⟨?_, ?_, ?_, ?_, fun E K => ?run⟩
  case run =>
    simp only [cc1__gram_kernel_eq_skeleton]; unfold cc1__gram_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Body1.lean ====
import proofs.«124657_j17093969838495_2_alg».proof.Proof.KI.R1A
import proofs.«124657_j17093969838495_2_alg».proof.Proof.KI.R1B
import proofs.«124657_j17093969838495_2_alg».proof.Proof.KI.R1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What the Gram call's two accumulators and two output tiles hold after each grid point
    `t = 16 i + j`, by recursion on `t`: at `j = 0` the accumulators restart from zero, at every
    other `j` they continue from what the point before left, and at `j = 15` the output tiles take
    the finished accumulators.  Then the proof data of the call over that recursion, and the
    kernel body's triple at every point. -/

/-! ## What each case's stores leave, read back -/
theorem scover1_A_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) (y : S1x1.Idx) :
    ∃ pc ∈ (kernelRun1_A c i arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg2 harg2 arg3 harg3 arg4 harg4 arg5 harg5 arg6 harg6 arg7 harg7 arg8 harg8 arg9 harg9 hc0 hc1 x0 x1 x2 x3).1 S1x1.size (by sl_kernel_rfl) y
def sout1_A_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) : Vec F S1x1 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).1)
theorem scover1_A_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) (y : S1x1.Idx) :
    ∃ pc ∈ (kernelRun1_A c i arg2 harg2 arg3 harg3 arg4 harg4 arg5 harg5 arg6 harg6 arg7 harg7 arg8 harg8 arg9 harg9 hc0 hc1 x0 x1 x2 x3).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.1 S1x1.size (by sl_kernel_rfl) y
def sout1_A_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) : Vec F S1x1 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.1)

theorem scover1_B_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).1 S1x1.size (by sl_kernel_rfl) y
def sout1_B_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).1)
theorem scover1_B_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_B c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.1 S1x1.size (by sl_kernel_rfl) y
def sout1_B_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.1)

theorem cover1_C_4 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S8x128.size (by sl_kernel_rfl) y
def out1_C_4 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S8x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)
theorem cover1_C_5 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S8x128.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S8x128.size (by sl_kernel_rfl) y
def out1_C_5 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S8x128 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)
theorem scover1_C_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S1x1.size (by sl_kernel_rfl) y
def sout1_C_0 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)
theorem scover1_C_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) (y : S1x1.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S1x1.size (by sl_kernel_rfl) y
def sout1_C_1 (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) : Vec F S1x1 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

/-- What an output tile's buffer is taken to hold at a point that stores nothing into it (never consulted:
    the window is idle there and not written back). -/
def idle4 : Vec F S8x128 .f32 := VO1_4.read (Elt F) (VO1_4.writes (Elt F) VO1_4.junk [])
def idle5 : Vec F S8x128 .f32 := VO1_5.read (Elt F) (VO1_5.writes (Elt F) VO1_5.junk [])

section
variable (V : (c : Dev nD) → (b : Ref sig .tc) → Buf (Elt F) ((c : Thread nD τ).loc b))

/-- Output tile of the distance sums, output tile of the diagonal sums, the two accumulators. -/
abbrev Outs1 (F : FTy → Type) [FloatOps F] : Type := Vec F S8x128 .f32 × Vec F S8x128 .f32 × Vec F S1x1 .f32 × Vec F S1x1 .f32

def stepA (c : Dev nD) (t : Fin cfg1.N) (h0 : t.val % 16 = 0) (h1 : ¬t.val % 16 = 15) : Outs1 F :=
  (idle4, idle5,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t))
def stepB (c : Dev nD) (t : Fin cfg1.N) (h0 : ¬t.val % 16 = 0) (h1 : ¬t.val % 16 = 15) (prev : Outs1 F) : Outs1 F :=
  (idle4, idle5,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) prev.2.2.1 prev.2.2.2,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) prev.2.2.1 prev.2.2.2)
def stepC (c : Dev nD) (t : Fin cfg1.N) (h0 : ¬t.val % 16 = 0) (h1 : t.val % 16 = 15) (prev : Outs1 F) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) prev.2.2.1 prev.2.2.2)

/-- The accumulation over the grid points in their order. -/
def outsAt1 (c : Dev nD) : (n : ℕ) → n < cfg1.N → Outs1 F
  | 0, hn => stepA V c ⟨0, hn⟩ (Nat.zero_mod _) (by intro h; simp at h)
  | n + 1, hn =>
    if h0 : (n + 1) % 16 = 0 then
      if h1 : (n + 1) % 16 = 15 then False.elim (by omega)
      else stepA V c ⟨n + 1, hn⟩ h0 h1
    else
      if h1 : (n + 1) % 16 = 15 then stepC V c ⟨n + 1, hn⟩ h0 h1 (outsAt1 c n (Nat.lt_of_succ_lt hn))
      else stepB V c ⟨n + 1, hn⟩ h0 h1 (outsAt1 c n (Nat.lt_of_succ_lt hn))

theorem outsAt1_A (c : Dev nD) (t : Fin cfg1.N) (h0 : t.val % 16 = 0) (h1 : ¬t.val % 16 = 15) :
    outsAt1 V c t.val t.isLt = stepA V c t h0 h1 := by
  obtain ⟨n, hn⟩ := t
  cases n with
  | zero => rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = stepB V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = stepC V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between grid points: the two accumulators at what the point before left -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.2.1 ∗ owns (c : Thread nD τ) scM1_1 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c n hn).2.2.1 ∗ owns (c : Thread nD τ) scM1_1 fullShare (outsAt1 V c n hn).2.2.2) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare (outsAt1 V c (n - 1) (by omega)).2.2.1 ∗ owns (c : Thread nD τ) scM1_1 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

end

end Cert.KernelIdeal.Hand

end
-- ==== Proof.KI.Body1b.lean ====
import proofs.«124657_j17093969838495_2_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The Gram kernel's triple at every grid point: which of the three cases the point is in is read off
    its position modulo 16; the accumulators go in at what the point before left (at anything at the
    very first point) and come back at this point's values. -/

section
variable (V : (c : Dev nD) → (b : Ref sig .tc) → Buf (Elt F) ((c : Thread nD τ).loc b))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 16 = 0
  · have h1 : ¬t.val % 16 = 15 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [outsAt1_A V c t h0 h1]
    unfold stepA sout1_A_0 sout1_A_1; (try dsimp only)
    by_cases hz : t.val = 0
    · rw [PhiS1_castSucc V c t, PhiS1_zero V c _ _ hz, PhiA1_eq]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by intro hz; rw [hz] at h0; exact h0 (Nat.zero_mod _)
    by_cases h1 : t.val % 16 = 15
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold stepC out1_C_4 out1_C_5 sout1_C_0 sout1_C_1; (try dsimp only)
      rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    ·
      rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold stepB sout1_B_0 sout1_B_1; (try dsimp only)
      rw [PhiS1_castSucc V c t, PhiS1_pos V c _ _ hz]
      iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HR7 HR8 HR9 HR10 HR11 HR12 HR13 HS0 HS1 Hg]
      · isplitl [HR0 HR1 HR2 HR3 HR4 HR5 HR6 HR7 HR8 HR9 HR10 HR11 HR12 HR13 HS0 HS1]
        ·
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the call is the invariant before its first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the accumulators' named contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HR0, HR1, HR2, HR3, HR4, HR5, HR6, HR7, HR8, HR9, HR10, HR11, HR12, HR13, HS0, HS1⟩, Hg⟩
  isplitl [HR0 HR1 HR2 HR3 HR4 HR5 HR6 HR7 HR8 HR9 HR10 HR11 HR12 HR13 HS0 HS1]
  ·
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HS0]; · iexists _; iexact HS0
    iexists _; iexact HS1
  iexact Hg

end

end Cert.KernelIdeal.Hand

end
-- ==== Proof.KI.Run.lean ====
import proofs.«124657_j17093969838495_2_alg».proof.Proof.KI.R0
import proofs.«124657_j17093969838495_2_alg».proof.Proof.KI.Body1b
import proofs.«124657_j17093969838495_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The whole run: the row-statistics call, five host operations, the Gram call, fifteen host
    operations.  The contents of every unscoped buffer are followed from the launch memory through
    the four items; at the end every such buffer holds the last valuation, `B4`. -/

variable (m : (ℓ : Loc nD τ sig) → Buf (Elt F) ℓ) (ρ : Dev nD → PrngReg)

/-- Core `c`'s buffers at launch. -/
abbrev B0 : Dev nD → Valuation τ sig (Elt F) := fun c b => m (c, b)
abbrev BV0 : (c : Dev nD) → (b : Ref sig .tc) → Buf (Elt F) ((c : Thread nD τ).loc b) := fun c b => B0 m c (Proc.devRef .tc b)
/-- After the row-statistics call: its five result arrays at what its write-backs leave. -/
def B1 (c : Dev nD) : Valuation τ sig (Elt F) :=
  Pipeline.withArrays spec0 c (B0 m c) fun w => (dat0 (BV0 m) c).arrAt w cfg0.N
theorem B1_arr (c : Dev nD) (w : Fin cfg0.W) :
    B1 m c (Proc.devRef .tc (Pipeline.arrRef spec0 w)) = (dat0 (BV0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev BV1 : (c : Dev nD) → (b : Ref sig .tc) → Buf (Elt F) ((c : Thread nD τ).loc b) := fun c b => B1 m c (Proc.devRef .tc b)
theorem hF0 (c : Dev nD) (w : Fin cfg0.W) : (dat0 (BV0 m) c).arrAt w cfg0.N = BV1 m c (Pipeline.arrRef spec0 w) :=
  (B1_arr m c w).symm
theorem hrest0 (c : Dev nD) : ∀ b, b ∉ Finset.univ.image (Pipeline.arrRef spec0) → BV1 m c b = BV0 m c b :=
  fun b hb => B1_of_ne m c b fun w e => hb (Finset.mem_image.mpr ⟨w, Finset.mem_univ _, e⟩)
/-- After the first host stretch (the partial sums added up and divided, the norm column recast as a row). -/
abbrev B2 (c : Dev nD) : Valuation τ sig (Elt F) := StableHlo.after hostOps1 (B1 m c)
abbrev BV2 : (c : Dev nD) → (b : Ref sig .tc) → Buf (Elt F) ((c : Thread nD τ).loc b) := fun c b => B2 m c (Proc.devRef .tc b)
/-- After the Gram call: its two result arrays at what its write-backs leave. -/
def B3 (c : Dev nD) : Valuation τ sig (Elt F) :=
  Pipeline.withArrays spec1 c (B2 m c) fun w => (dat1 (BV2 m) c).arrAt w cfg1.N
theorem B3_arr (c : Dev nD) (w : Fin cfg1.W) :
    B3 m c (Proc.devRef .tc (Pipeline.arrRef spec1 w)) = (dat1 (BV2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev BV3 : (c : Dev nD) → (b : Ref sig .tc) → Buf (Elt F) ((c : Thread nD τ).loc b) := fun c b => B3 m c (Proc.devRef .tc b)
theorem hF1 (c : Dev nD) (w : Fin cfg1.W) : (dat1 (BV2 m) c).arrAt w cfg1.N = BV3 m c (Pipeline.arrRef spec1 w) :=
  (B3_arr m c w).symm
theorem hrest1 (c : Dev nD) : ∀ b, b ∉ Finset.univ.image (Pipeline.arrRef spec1) → BV3 m c b = BV2 m c b :=
  fun b hb => B3_of_ne m c b fun w e => hb (Finset.mem_image.mpr ⟨w, Finset.mem_univ _, e⟩)
/-- After the second host stretch: the last valuation. -/
abbrev B4 (c : Dev nD) : Valuation τ sig (Elt F) := StableHlo.after hostOps2 (B3 m c)

/-! ### The two argument arrays reach the end as launched -/

theorem B4_main_arg0 (c : Dev nD) : B4 m c (Proc.devRef .tc main_arg0) = m ((c : Thread nD τ).loc main_arg0) :=
  calc B4 m c (Proc.devRef .tc main_arg0)
    _ = B3 m c (Proc.devRef .tc main_arg0) := StableHlo.after_of_writes_sub hostOps2 _ hostOps2_writes (by decide)
    _ = B2 m c (Proc.devRef .tc main_arg0) := B3_of_ne m c main_arg0 (by decide)
    _ = B1 m c (Proc.devRef .tc main_arg0) := StableHlo.after_of_writes_sub hostOps1 _ hostOps1_writes (by decide)
    _ = B0 m c (Proc.devRef .tc main_arg0) := (B1_arr m c 0).trans (((dat0 (BV0 m) c).arrAt_in 0 rfl _).trans (A_eq0 (BV0 m) c 0))
    _ = m ((c : Thread nD τ).loc main_arg0) := rfl
theorem B4_main_arg1 (c : Dev nD) : B4 m c (Proc.devRef .tc main_arg1) = m ((c : Thread nD τ).loc main_arg1) :=
  calc B4 m c (Proc.devRef .tc main_arg1)
    _ = B3 m c (Proc.devRef .tc main_arg1) := StableHlo.after_of_writes_sub hostOps2 _ hostOps2_writes (by decide)
    _ = B2 m c (Proc.devRef .tc main_arg1) := B3_of_ne m c main_arg1 (by decide)
    _ = B1 m c (Proc.devRef .tc main_arg1) := StableHlo.after_of_writes_sub hostOps1 _ hostOps1_writes (by decide)
    _ = B0 m c (Proc.devRef .tc main_arg1) := (B1_arr m c 1).trans (((dat0 (BV0 m) c).arrAt_in 1 rfl _).trans (A_eq0 (BV0 m) c 1))
    _ = m ((c : Thread nD τ).loc main_arg1) := rfl

/-! ## The proof data of both calls, and the state threaded between the items -/

def pdats : (p : Fin 2) → (c : Dev nD) → Dat τ (Elt F) Unit ℕ (Pipeline.UD sig nD τ) ℕ (Pipeline.pin (pcfgs (F := F)) adm p) c
  | ⟨0, _⟩ => fun c => dat0 (BV0 m) c
  | ⟨1, _⟩ => fun c => dat1 (BV2 m) c
abbrev Lv0 : GSem nD τ sig → Finset Unit := fun _ => ∅
abbrev lv0 : GSem nD τ sig → Unit → ℕ := fun _ _ => 0
/-- What rides beside the buffers: the core's generator register at some state, and nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Variants.none Lv0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (B4 m c) ∗ ∃ r, prngReg c r)

set_option backward.isDefEq.respectTransparency.types false in
/-- The row-statistics call as an item: entered with the buffers at `B0`, left with them at `B1`. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (body_obligation0 (BV0 m) c).loose
  hwaits := Pipeline.hwaits_of_owed_zero _ _ _ _ Lv0 lv0 0 fun _ _ => rfl
  pre c := iprop(StableHlo.held (c : Thread nD τ) (Pipeline.ucRefs τ sig) (B0 m c) ∗ Rst c)
  post c := iprop(StableHlo.held (c : Thread nD τ) (Pipeline.ucRefs τ sig) (B1 m c) ∗ Rst c)
  X c := iprop(∃ r, prngReg c r)
  Y c := iprop(∃ r, prngReg c r)
  Z c := Pipeline.unscopedRest (Ix := Unit) (Name := ℕ) (U := Pipeline.UD sig nD τ) (Lvl := ℕ) spec0 c (BV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (BV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (BV0 m c) (BV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The Gram call as an item: entered with the buffers at `B2`, left with them at `B3`. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (body_obligation1 (BV2 m) c).loose
  hwaits := Pipeline.hwaits_of_owed_zero _ _ _ _ Lv0 lv0 1 fun _ _ => rfl
  pre c := iprop(StableHlo.held (c : Thread nD τ) (Pipeline.ucRefs τ sig) (B2 m c) ∗ Rst c)
  post c := iprop(StableHlo.held (c : Thread nD τ) (Pipeline.ucRefs τ sig) (B3 m c) ∗ Rst c)
  X c := iprop(∃ r, prngReg c r)
  Y c := iprop(∃ r, prngReg c r)
  Z c := Pipeline.unscopedRest (Ix := Unit) (Name := ℕ) (U := Pipeline.UD sig nD τ) (Lvl := ℕ) spec1 c (BV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (BV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (BV2 m) c)
    unfold Pipeline.ΦA
    iintro ⟨Hp, -, Hr⟩
    isplitl [Hr]; · iexact Hr
    iexact Hp
  hout c := by
    refine BIBase.Entails.trans (hout1 (BV2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (BV2 m c) (BV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four items in order. -/
abbrev items : List (Pipeline.Seg (pcfgs (F := F)) adm (pdats m) () defs₀ Variants.none Lv0 lv0) :=
  [ .region (reg0 m),
    .host (hseg hostOps1 hostOps1_sub hostOps1_fresh (B1 m)),
    .region (reg1 m),
    .host (hseg hostOps2 hostOps2_sub hostOps2_fresh (B3 m)) ]

set_option backward.isDefEq.respectTransparency.types false in
/-- From any memory with zero counters every weakly fair execution of @main terminates, nothing faulting,
    and every unscoped buffer ends at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj embL defs₀ Variants.none Lv0 lv0 m ρ main (items m)
    (fun c Q => by
      rewrite [main_chain c, Pipeline.Seg.run_eq_chain,
        show (items m).map Pipeline.Seg.prog = [
          Prog.lift (.customCall (Pipeline.entry 0) ()),
          StableHlo.seq hostOps1,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rst c)) (Tₙ := Tend m)
    (hch := ⟨fun _ => .rfl, fun _ => .rfl, fun _ => .rfl, fun _ => .rfl, fun c => by
      show iprop(StableHlo.held (c : Thread nD τ) (Pipeline.ucRefs τ sig) (B4 m c) ∗ Rst c) ⊢ iprop(Tend m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lv0 lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h c => h c)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B4_main_arg0 m c),
     (h c _ (mem_uc main_arg1 (by decide))).trans (B4_main_arg1 m c)⟩) (run m ρ)

end Cert.KernelIdeal.Hand

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KI.Pay.lean ====
import proofs.«124657_j17093969838495_2_alg».proof.Proof.Gen.KernelIdeal.Skeleton
import proofs.«124657_j17093969838495_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.Lib.Keepdims
open scoped BigOperators

/-! The two kernels' arithmetic read at an index, at the extended reals: every row reduction is a finite
    sum, every change of layout moves an entry, the narrow float format is the identity. -/

/-- The constant `2.0` the distance expansion multiplies the Gram entry by. -/
abbrev two : EReal := Ideal.ofBits .f32 0x40000000#32

/-- Row `r` of the squared-norm column of a block: the sum of the squares of the row's entries. -/
theorem pay2_apply (x : FVec Ideal S256x4096 .f32) (r : Fin 256) (u : Fin 1) :
    k0_pay2 (F := Ideal) x (ix2 r u) = ∑ k : Fin 4096, x (ix2 r k) * x (ix2 r k) := by
  unfold k0_pay2
  refine (shapeCast_a_a1_apply _ _ r u).trans ?_
  exact rowSum_apply (mulf x x) _ _ _ _ r
theorem pay3_apply (x : FVec Ideal S256x4096 .f32) (r : Fin 256) (u : Fin 1) :
    k0_pay3 (F := Ideal) x (ix2 r u) = ∑ k : Fin 4096, x (ix2 r k) * x (ix2 r k) := by
  unfold k0_pay3
  refine (shapeCast_a_a1_apply _ _ r u).trans ?_
  exact rowSum_apply (mulf x x) _ _ _ _ r

/-- A 1×1 array spread over a tile reads its one entry everywhere. -/
theorem bcast_1x1_apply {α : Type} (v : S1x1.Idx → α) (h : S1x1.Broadcasts S8x128) (a : Fin 8) (b : Fin 128) :
    broadcastTo S8x128 v h (ix2 a b) = v (ix2 (0 : Fin 1) (0 : Fin 1)) := by
  refine broadcastTo_apply v h (ix2 a b) (ix2 (0 : Fin 1) (0 : Fin 1)) fun ax => ?_
  match ax with
  | ⟨0, _⟩ => rfl
  | ⟨1, _⟩ => rfl

/-- Every cell of the partial-sum tile: the block's sum of squared differences, row by row. -/
theorem pay1_apply (x y : FVec Ideal S256x4096 .f32) (a : Fin 8) (b : Fin 128) :
    k0_pay1 (F := Ideal) x y (ix2 a b)
      = ∑ r : Fin 256, ∑ _u : Fin 1, ∑ k : Fin 4096, (x (ix2 r k) - y (ix2 r k)) * (x (ix2 r k) - y (ix2 r k)) := by
  unfold k0_pay1
  refine (bcast_1x1_apply _ _ a b).trans ?_
  rw [shapeCast_self]
  refine (shapeCast_a_a1_apply _ _ (0 : Fin 1) (0 : Fin 1)).trans ?_
  refine (Ideal.multiReduction_add_total _ _ _ (fun b => by match b with | ⟨0, _⟩ => rfl) _ _ _).trans ?_
  rw [sum_idx2]
  refine Finset.sum_congr rfl fun r _ => Finset.sum_congr rfl fun u _ => ?_
  refine (shapeCast_a_a1_apply _ _ r u).trans ?_
  exact rowSum_apply (mulf (subf x y) (subf x y)) _ _ _ _ r

/-- The narrow-format copies are the blocks themselves. -/
theorem pay4_eq (x : FVec Ideal S256x4096 .f32) : k0_pay4 (F := Ideal) x = x := rfl
theorem pay5_eq (x : FVec Ideal S256x4096 .f32) : k0_pay5 (F := Ideal) x = x := rfl

/-- The zero the accumulators restart from. -/
theorem pay4z_apply (j : S1x1.Idx) : k1_pay4 (F := Ideal) j = 0 := by
  unfold k1_pay4; rw [shapeCast_self]; show Ideal.ofBits .f32 0x00000000#32 = 0; exact Ideal.ofBits_zero_f32
theorem pay5z_apply (j : S1x1.Idx) : k1_pay5 (F := Ideal) j = 0 := by
  unfold k1_pay5; rw [shapeCast_self]; show Ideal.ofBits .f32 0x00000000#32 = 0; exact Ideal.ofBits_zero_f32

/-- A finished accumulator spread over its output tile. -/
theorem pay2o_apply (v : FVec Ideal S1x1 .f32) (a : Fin 8) (b : Fin 128) :
    k1_pay2 (F := Ideal) v (ix2 a b) = v (ix2 (0 : Fin 1) (0 : Fin 1)) := by
  unfold k1_pay2; rw [shapeCast_self]; exact bcast_1x1_apply _ _ a b
theorem pay3o_apply (v : FVec Ideal S1x1 .f32) (a : Fin 8) (b : Fin 128) :
    k1_pay3 (F := Ideal) v (ix2 a b) = v (ix2 (0 : Fin 1) (0 : Fin 1)) := by
  unfold k1_pay3; rw [shapeCast_self]; exact bcast_1x1_apply _ _ a b

/-- One contraction sum of the Gram tile, re-indexed by the column of the two operands. -/
theorem gram_apply (x0 : FVec Ideal S1024x4096 .bf16) (x1 : FVec Ideal S256x4096 .bf16) (r : Fin 1024) (q : Fin 256) :
    matmul (F := Ideal) dot_S1024x4096_S256x4096_S1024x256_1_1_0_0_n_n none x0 x1 (constant S1024x256 .f32 0x00000000#32) (ix2 r q)
      = ∑ k : Fin 4096, x0 (ix2 r k) * x1 (ix2 q k) := by
  refine (Ideal.matmul_constant_zero_apply _ _ x0 x1 (ix2 r q)).trans ?_
  refine (Equiv.sum_comp (contrEquiv1 dot_S1024x4096_S256x4096_S1024x256_1_1_0_0_n_n 4096 rfl rfl).symm _).symm.trans ?_
  refine Finset.sum_congr rfl fun k _ => ?_
  have hl : dot_S1024x4096_S256x4096_S1024x256_1_1_0_0_n_n.lhsIdx (ix2 r q) ((contrEquiv1 dot_S1024x4096_S256x4096_S1024x256_1_1_0_0_n_n 4096 rfl rfl).symm k) = ix2 r k := by
    funext a; apply Fin.ext
    match a with
    | ⟨0, _⟩ => rfl
    | ⟨1, _⟩ => exact (DotDims.lhsIdx_val_of_single _ rfl _ _).trans (contrEquiv1_symm_val _ 4096 rfl rfl k)
  have hr : dot_S1024x4096_S256x4096_S1024x256_1_1_0_0_n_n.rhsIdx (ix2 r q) ((contrEquiv1 dot_S1024x4096_S256x4096_S1024x256_1_1_0_0_n_n 4096 rfl rfl).symm k) = ix2 q k := by
    funext a; apply Fin.ext
    match a with
    | ⟨0, _⟩ => rfl
    | ⟨1, _⟩ => exact (DotDims.rhsIdx_val_of_single _ rfl _ _).trans (contrEquiv1_symm_val _ 4096 rfl rfl k)
  rw [hl, hr]

/-- One entry of the distance tile: the two squared norms minus twice the Gram entry. -/
theorem pay6_apply (x0 : FVec Ideal S1024x4096 .bf16) (x1 : FVec Ideal S256x4096 .bf16) (x2 : FVec Ideal S1024x1 .f32) (x3 : FVec Ideal S1x256 .f32)
    (r : Fin 1024) (q : Fin 256) :
    k1_pay6 (F := Ideal) x0 x1 x2 x3 (ix2 r q)
      = (x2 (ix2 r (0 : Fin 1)) + x3 (ix2 (0 : Fin 1) q)) - two * ∑ k : Fin 4096, x0 (ix2 r k) * x1 (ix2 q k) := by
  unfold k1_pay6
  simp only [shapeCast_self]
  show (broadcastTo S1024x256 x2 _ (ix2 r q) + broadcastTo S1024x256 x3 _ (ix2 r q)) - two * matmul (F := Ideal) _ none x0 x1 _ (ix2 r q) = _
  rw [broadcastTo_a1_ab_apply, broadcastTo_1b_ab_apply, gram_apply]

/-- The sum of a 1024×256 tile, taken row by row as the kernel does. -/
theorem tileSum_apply (d : FVec Ideal S1024x256 .f32) :
    shapeCast S1x1 (multiReduction .add [0] S1 (shapeCast S1024x1 (multiReduction .add [1] S1024 d 0x00000000#32 reduces_S1024x256_S1024 (.inl rfl) rfl) shapeCasts_S1024_S1024x1) 0x00000000#32 reduces_S1024x1_S1 (.inl rfl) rfl) shapeCasts_S1_S1x1 (ix2 (0 : Fin 1) (0 : Fin 1))
      = ∑ r : Fin 1024, ∑ _u : Fin 1, ∑ q : Fin 256, d (ix2 r q) := by
  refine (shapeCast_a_a1_apply _ _ (0 : Fin 1) (0 : Fin 1)).trans ?_
  refine (Ideal.multiReduction_add_total _ _ _ (fun b => by match b with | ⟨0, _⟩ => rfl) _ _ _).trans ?_
  rw [sum_idx2]
  refine Finset.sum_congr rfl fun r _ => Finset.sum_congr rfl fun u _ => ?_
  refine (shapeCast_a_a1_apply _ _ r u).trans ?_
  exact rowSum_apply d _ _ _ _ r

/-- The distance accumulator after a tile: what it held plus the tile's sum of distances. -/
theorem pay7_apply (x0 : FVec Ideal S1024x4096 .bf16) (x1 : FVec Ideal S256x4096 .bf16) (x2 : FVec Ideal S1024x1 .f32) (x3 : FVec Ideal S1x256 .f32)
    (v : FVec Ideal S1x1 .f32) :
    k1_pay7 (F := Ideal) x0 x1 x2 x3 v (ix2 (0 : Fin 1) (0 : Fin 1))
      = v (ix2 (0 : Fin 1) (0 : Fin 1)) + ∑ r : Fin 1024, ∑ _u : Fin 1, ∑ q : Fin 256, k1_pay6 (F := Ideal) x0 x1 x2 x3 (ix2 r q) := by
  unfold k1_pay7
  rw [shapeCast_self]
  show v (ix2 (0 : Fin 1) (0 : Fin 1)) + _ = _
  exact congrArg (v (ix2 (0 : Fin 1) (0 : Fin 1)) + ·) (tileSum_apply _)

/-- The diagonal accumulator after a tile: what it held plus the tile's distances under the mask. -/
theorem pay1d_apply (d : FVec Ideal S1024x256 .f32) (msk : IVec S1024x256 1) (v : FVec Ideal S1x1 .f32) :
    k1_pay1 (F := Ideal) d msk v (ix2 (0 : Fin 1) (0 : Fin 1))
      = v (ix2 (0 : Fin 1) (0 : Fin 1)) + ∑ r : Fin 1024, ∑ _u : Fin 1, ∑ q : Fin 256, Scalar.select (msk (ix2 r q)) (d (ix2 r q)) (0 : EReal) := by
  unfold k1_pay1
  rw [shapeCast_self]
  show v (ix2 (0 : Fin 1) (0 : Fin 1)) + _ = _
  refine congrArg (v (ix2 (0 : Fin 1) (0 : Fin 1)) + ·) ((tileSum_apply _).trans ?_)
  refine Finset.sum_congr rfl fun r _ => Finset.sum_congr rfl fun u _ => Finset.sum_congr rfl fun q _ => ?_
  show Scalar.select (msk (ix2 r q)) (d (ix2 r q)) (Ideal.ofBits .f32 0x00000000#32) = _
  rw [Ideal.ofBits_zero_f32]

end Cert.KernelIdeal.Hand

end
-- ==== Proof.KI.Pieces.lean ====
import proofs.«124657_j17093969838495_2_alg».proof.Proof.KI.Body1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! What each case of the Gram kernel leaves in its accumulators and output tiles, as the kernel's own
    arithmetic applied to the input blocks and to what the accumulators held before. -/

theorem hz2 : (![0, 0] : Fin 2 → Nat) = fun _ => 0 := funext fun a => by fin_cases a <;> rfl

theorem sout1_A_0_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) :
    sout1_A_0 (F := F) c i arg2 harg2 arg3 harg3 arg4 harg4 arg5 harg5 arg6 harg6 arg7 harg7 arg8 harg8 arg9 harg9 hc0 hc1 x0 x1 x2 x3 = k1_pay7 x0 x1 x2 x3 (k1_pay4 (F := F)) := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]
  rw [View.readCov_unit_zero arg8.view hz2]

theorem sout1_A_1_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : cond1_0 i) (hc1 : ¬cond1_1 i) (x0 : Vec F S1024x4096 .bf16) (x1 : Vec F S256x4096 .bf16) (x2 : Vec F S1024x1 .f32) (x3 : Vec F S1x256 .f32) :
    sout1_A_1 (F := F) c i arg2 harg2 arg3 harg3 arg4 harg4 arg5 harg5 arg6 harg6 arg7 harg7 arg8 harg8 arg9 harg9 hc0 hc1 x0 x1 x2 x3 = k1_pay1 (k1_pay6 x0 x1 x2 x3) (k1_pay8 i) (k1_pay5 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]
  rw [View.readCov_unit_zero arg9.view hz2]

theorem sout1_B_0_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) :
    sout1_B_0 (F := F) c i arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]

theorem sout1_B_1_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : ¬cond1_1 i) (x0 : Vec F S1024x4096 .bf16) (x1 : Vec F S256x4096 .bf16) (x2 : Vec F S1024x1 .f32) (x3 : Vec F S1x256 .f32) (xs0 xs1 : Vec F S1x1 .f32) :
    sout1_B_1 (F := F) c i arg2 harg2 arg3 harg3 arg4 harg4 arg5 harg5 arg6 harg6 arg7 harg7 arg8 harg8 arg9 harg9 hc0 hc1 x0 x1 x2 x3 xs0 xs1 = k1_pay1 (k1_pay6 x0 x1 x2 x3) (k1_pay8 i) xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1)]
  unfold kernelRun1_B
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]

theorem sout1_C_0_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) :
    sout1_C_0 (F := F) c i arg2 harg2 arg3 harg3 arg4 harg4 arg5 harg5 arg6 harg6 arg7 harg7 arg8 harg8 arg9 harg9 hc0 hc1 x0 x1 x2 x3 xs0 xs1 = k1_pay7 x0 x1 x2 x3 xs0 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]

theorem sout1_C_1_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) :
    sout1_C_1 (F := F) c i arg2 harg2 arg3 harg3 arg4 harg4 arg5 harg5 arg6 harg6 arg7 harg7 arg8 harg8 arg9 harg9 hc0 hc1 x0 x1 x2 x3 xs0 xs1 = k1_pay1 (k1_pay6 x0 x1 x2 x3) (k1_pay8 i) xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]

theorem out1_C_4_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) :
    out1_C_4 (F := F) c i arg2 harg2 arg3 harg3 arg4 harg4 arg5 harg5 arg6 harg6 arg7 harg7 arg8 harg8 arg9 harg9 hc0 hc1 x0 x1 x2 x3 xs0 xs1 = k1_pay2 (k1_pay7 x0 x1 x2 x3 xs0) := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]
  rw [View.readCov_unit_zero arg8.view hz2]

theorem out1_C_5_eq (c : Dev nD) (i : grid1.Coords) (arg2 : Memref sig .tc .vmem S1024x4096 .bf16) (harg2 : arg2.IsWhole) (arg3 : Memref sig .tc .vmem S256x4096 .bf16) (harg3 : arg3.IsWhole) (arg4 : Memref sig .tc .vmem S1024x1 .f32) (harg4 : arg4.IsWhole) (arg5 : Memref sig .tc .vmem S1x256 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x1 .f32) (harg8 : arg8.IsWhole) (arg9 : Memref sig .tc .vmem S1x1 .f32) (harg9 : arg9.IsWhole) (hc0 : ¬cond1_0 i) (hc1 : cond1_1 i) (x0 : Vec F S1024x4096 .bf16) (x1 : Vec F S256x4096 .bf16) (x2 : Vec F S1024x1 .f32) (x3 : Vec F S1x256 .f32) (xs0 xs1 : Vec F S1x1 .f32) :
    out1_C_5 (F := F) c i arg2 harg2 arg3 harg3 arg4 harg4 arg5 harg5 arg6 harg6 arg7 harg7 arg8 harg8 arg9 harg9 hc0 hc1 x0 x1 x2 x3 xs0 xs1 = k1_pay3 (k1_pay1 (k1_pay6 x0 x1 x2 x3) (k1_pay8 i) xs1) := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 xs0 xs1)]
  unfold kernelRun1_C
  dsimp only
  try sl_unfold_words
  first | rw [View.canon_cons_unit_zero hz2] | rw [View.canon_unit_zero hz2]
  try sl_unfold_words
  simp only [View.readAt_eq_ld, Memref.IsWhole.read_unread, View.ld_unit_zero (S := S1024x4096) hz2, View.ld_unit_zero (S := S256x4096) hz2, View.ld_unit_zero (S := S1024x1) hz2, View.ld_unit_zero (S := S1x256) hz2, View.ld_unit_zero (S := S1x1) hz2]
  rw [View.readCov_unit_zero arg9.view hz2]

end Cert.KernelIdeal.Hand

end
-- ==== Proof.KI.Val0.lean ====
import proofs.«124657_j17093969838495_2_alg».proof.Proof.KI.R0
import proofs.«124657_j17093969838495_2_alg».proof.Proof.KI.Pay
import proofs.«124657_j17093969838495_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! The five arrays the row-statistics call leaves, each as one function of the two argument arrays:
    the two columns of squared row norms, the 128×128 array of per-tile sums of squared differences,
    and the two narrow-format copies (the arguments themselves, at the extended reals). -/

section
variable (V : (c : Dev nD) → (b : Ref sig .tc) → Buf (Elt Ideal) ((c : Thread nD τ).loc b)) (c : Dev nD)

/-- Every window of the call moves down its array one block per grid point. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem emb0_0_0 (t : Fin cfg0.N) (r : Fin 256) (k : Fin 4096) :
    ((((cfg0.win 0).blk t).view.emb (ix2 r k)) 0).val = 256 * t.val + r.val := by
  obtain ⟨e0a, e0b, e1a, e1b, e2a, e2b, e3a, e3b, e4a, e4b, e5a, e5b, e6a, e6b⟩ := idx0 t
  show win0_0.index t (0 : Fin 2) * 256 + 1 * r.val = _
  omega
theorem emb0_0_1 (t : Fin cfg0.N) (r : Fin 256) (k : Fin 4096) :
    ((((cfg0.win 0).blk t).view.emb (ix2 r k)) 1).val = k.val := by
  obtain ⟨e0a, e0b, e1a, e1b, e2a, e2b, e3a, e3b, e4a, e4b, e5a, e5b, e6a, e6b⟩ := idx0 t
  show win0_0.index t (1 : Fin 2) * 4096 + 1 * k.val = _
  omega
theorem emb0_1_0 (t : Fin cfg0.N) (r : Fin 256) (k : Fin 4096) :
    ((((cfg0.win 1).blk t).view.emb (ix2 r k)) 0).val = 256 * t.val + r.val := by
  obtain ⟨e0a, e0b, e1a, e1b, e2a, e2b, e3a, e3b, e4a, e4b, e5a, e5b, e6a, e6b⟩ := idx0 t
  show win0_1.index t (0 : Fin 2) * 256 + 1 * r.val = _
  omega
theorem emb0_1_1 (t : Fin cfg0.N) (r : Fin 256) (k : Fin 4096) :
    ((((cfg0.win 1).blk t).view.emb (ix2 r k)) 1).val = k.val := by
  obtain ⟨e0a, e0b, e1a, e1b, e2a, e2b, e3a, e3b, e4a, e4b, e5a, e5b, e6a, e6b⟩ := idx0 t
  show win0_1.index t (1 : Fin 2) * 4096 + 1 * k.val = _
  omega
theorem emb0_2_0 (t : Fin cfg0.N) (r : Fin 256) (k : Fin 1) :
    ((((cfg0.win 2).blk t).view.emb (ix2 r k)) 0).val = 256 * t.val + r.val := by
  obtain ⟨e0a, e0b, e1a, e1b, e2a, e2b, e3a, e3b, e4a, e4b, e5a, e5b, e6a, e6b⟩ := idx0 t
  show win0_2.index t (0 : Fin 2) * 256 + 1 * r.val = _
  omega
theorem emb0_2_1 (t : Fin cfg0.N) (r : Fin 256) (k : Fin 1) :
    ((((cfg0.win 2).blk t).view.emb (ix2 r k)) 1).val = k.val := by
  obtain ⟨e0a, e0b, e1a, e1b, e2a, e2b, e3a, e3b, e4a, e4b, e5a, e5b, e6a, e6b⟩ := idx0 t
  show win0_2.index t (1 : Fin 2) * 1 + 1 * k.val = _
  omega
theorem emb0_3_0 (t : Fin cfg0.N) (r : Fin 256) (k : Fin 1) :
    ((((cfg0.win 3).blk t).view.emb (ix2 r k)) 0).val = 256 * t.val + r.val := by
  obtain ⟨e0a, e0b, e1a, e1b, e2a, e2b, e3a, e3b, e4a, e4b, e5a, e5b, e6a, e6b⟩ := idx0 t
  show win0_3.index t (0 : Fin 2) * 256 + 1 * r.val = _
  omega
theorem emb0_3_1 (t : Fin cfg0.N) (r : Fin 256) (k : Fin 1) :
    ((((cfg0.win 3).blk t).view.emb (ix2 r k)) 1).val = k.val := by
  obtain ⟨e0a, e0b, e1a, e1b, e2a, e2b, e3a, e3b, e4a, e4b, e5a, e5b, e6a, e6b⟩ := idx0 t
  show win0_3.index t (1 : Fin 2) * 1 + 1 * k.val = _
  omega
theorem emb0_4_0 (t : Fin cfg0.N) (r : Fin 8) (k : Fin 128) :
    ((((cfg0.win 4).blk t).view.emb (ix2 r k)) 0).val = 8 * t.val + r.val := by
  obtain ⟨e0a, e0b, e1a, e1b, e2a, e2b, e3a, e3b, e4a, e4b, e5a, e5b, e6a, e6b⟩ := idx0 t
  show win0_4.index t (0 : Fin 2) * 8 + 1 * r.val = _
  omega
theorem emb0_4_1 (t : Fin cfg0.N) (r : Fin 8) (k : Fin 128) :
    ((((cfg0.win 4).blk t).view.emb (ix2 r k)) 1).val = k.val := by
  obtain ⟨e0a, e0b, e1a, e1b, e2a, e2b, e3a, e3b, e4a, e4b, e5a, e5b, e6a, e6b⟩ := idx0 t
  show win0_4.index t (1 : Fin 2) * 128 + 1 * k.val = _
  omega
theorem emb0_5_0 (t : Fin cfg0.N) (r : Fin 256) (k : Fin 4096) :
    ((((cfg0.win 5).blk t).view.emb (ix2 r k)) 0).val = 256 * t.val + r.val := by
  obtain ⟨e0a, e0b, e1a, e1b, e2a, e2b, e3a, e3b, e4a, e4b, e5a, e5b, e6a, e6b⟩ := idx0 t
  show win0_5.index t (0 : Fin 2) * 256 + 1 * r.val = _
  omega
theorem emb0_5_1 (t : Fin cfg0.N) (r : Fin 256) (k : Fin 4096) :
    ((((cfg0.win 5).blk t).view.emb (ix2 r k)) 1).val = k.val := by
  obtain ⟨e0a, e0b, e1a, e1b, e2a, e2b, e3a, e3b, e4a, e4b, e5a, e5b, e6a, e6b⟩ := idx0 t
  show win0_5.index t (1 : Fin 2) * 4096 + 1 * k.val = _
  omega
theorem emb0_6_0 (t : Fin cfg0.N) (r : Fin 256) (k : Fin 4096) :
    ((((cfg0.win 6).blk t).view.emb (ix2 r k)) 0).val = 256 * t.val + r.val := by
  obtain ⟨e0a, e0b, e1a, e1b, e2a, e2b, e3a, e3b, e4a, e4b, e5a, e5b, e6a, e6b⟩ := idx0 t
  show win0_6.index t (0 : Fin 2) * 256 + 1 * r.val = _
  omega
theorem emb0_6_1 (t : Fin cfg0.N) (r : Fin 256) (k : Fin 4096) :
    ((((cfg0.win 6).blk t).view.emb (ix2 r k)) 1).val = k.val := by
  obtain ⟨e0a, e0b, e1a, e1b, e2a, e2b, e3a, e3b, e4a, e4b, e5a, e5b, e6a, e6b⟩ := idx0 t
  show win0_6.index t (1 : Fin 2) * 4096 + 1 * k.val = _
  omega

theorem mem_blk0_2 (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_0).slice (win0_2.rect t)).set ↔ _
  rw [View.set_slice_whole, Rect.mem_set_unit]
  exact Iff.rfl
theorem cover0_2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  refine ⟨⟨(i 0).val / 256, by rw [show cfg0.N = 16 from N_0]; omega⟩, flush0_2 _, ?_⟩
  rw [mem_blk0_2]
  obtain ⟨e0a, e0b, e1a, e1b, e2a, e2b, e3a, e3b, e4a, e4b, e5a, e5b, e6a, e6b⟩ := idx0 ⟨(i 0).val / 256, by rw [show cfg0.N = 16 from N_0]; omega⟩
  intro a
  match a with
  | ⟨0, _⟩ => show win0_2.index _ (0 : Fin 2) * 256 ≤ (i 0).val ∧ (i 0).val < win0_2.index _ (0 : Fin 2) * 256 + 256; rw [e2a]; show (i 0).val / 256 * 256 ≤ (i 0).val ∧ (i 0).val < (i 0).val / 256 * 256 + 256; omega
  | ⟨1, _⟩ => show win0_2.index _ (1 : Fin 2) * 1 ≤ (i 1).val ∧ (i 1).val < win0_2.index _ (1 : Fin 2) * 1 + 1; rw [e2b]; omega
theorem mem_blk0_3 (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0_1).slice (win0_3.rect t)).set ↔ _
  rw [View.set_slice_whole, Rect.mem_set_unit]
  exact Iff.rfl
theorem cover0_3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  refine ⟨⟨(i 0).val / 256, by rw [show cfg0.N = 16 from N_0]; omega⟩, flush0_3 _, ?_⟩
  rw [mem_blk0_3]
  obtain ⟨e0a, e0b, e1a, e1b, e2a, e2b, e3a, e3b, e4a, e4b, e5a, e5b, e6a, e6b⟩ := idx0 ⟨(i 0).val / 256, by rw [show cfg0.N = 16 from N_0]; omega⟩
  intro a
  match a with
  | ⟨0, _⟩ => show win0_3.index _ (0 : Fin 2) * 256 ≤ (i 0).val ∧ (i 0).val < win0_3.index _ (0 : Fin 2) * 256 + 256; rw [e3a]; show (i 0).val / 256 * 256 ≤ (i 0).val ∧ (i 0).val < (i 0).val / 256 * 256 + 256; omega
  | ⟨1, _⟩ => show win0_3.index _ (1 : Fin 2) * 1 ≤ (i 1).val ∧ (i 1).val < win0_3.index _ (1 : Fin 2) * 1 + 1; rw [e3b]; omega
theorem mem_blk0_4 (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_2).slice (win0_4.rect t)).set ↔ _
  rw [View.set_slice_whole, Rect.mem_set_unit]
  exact Iff.rfl
theorem cover0_4 (i : S128x128.Idx) : ∃ t : Fin cfg0.N, (cfg0.win 4).flush t = true ∧ i ∈ ((cfg0.win 4).blk t).view.set := by
  have hi0 : (i 0).val < 128 := (i 0).isLt
  have hi1 : (i 1).val < 128 := (i 1).isLt
  refine ⟨⟨(i 0).val / 8, by rw [show cfg0.N = 16 from N_0]; omega⟩, flush0_4 _, ?_⟩
  rw [mem_blk0_4]
  obtain ⟨e0a, e0b, e1a, e1b, e2a, e2b, e3a, e3b, e4a, e4b, e5a, e5b, e6a, e6b⟩ := idx0 ⟨(i 0).val / 8, by rw [show cfg0.N = 16 from N_0]; omega⟩
  intro a
  match a with
  | ⟨0, _⟩ => show win0_4.index _ (0 : Fin 2) * 8 ≤ (i 0).val ∧ (i 0).val < win0_4.index _ (0 : Fin 2) * 8 + 8; rw [e4a]; show (i 0).val / 8 * 8 ≤ (i 0).val ∧ (i 0).val < (i 0).val / 8 * 8 + 8; omega
  | ⟨1, _⟩ => show win0_4.index _ (1 : Fin 2) * 128 ≤ (i 1).val ∧ (i 1).val < win0_4.index _ (1 : Fin 2) * 128 + 128; rw [e4b]; omega
theorem mem_blk0_5 (t : Fin cfg0.N) (i : S4096x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v0_3).slice (win0_5.rect t)).set ↔ _
  rw [View.set_slice_whole, Rect.mem_set_unit]
  exact Iff.rfl
theorem cover0_5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  refine ⟨⟨(i 0).val / 256, by rw [show cfg0.N = 16 from N_0]; omega⟩, flush0_5 _, ?_⟩
  rw [mem_blk0_5]
  obtain ⟨e0a, e0b, e1a, e1b, e2a, e2b, e3a, e3b, e4a, e4b, e5a, e5b, e6a, e6b⟩ := idx0 ⟨(i 0).val / 256, by rw [show cfg0.N = 16 from N_0]; omega⟩
  intro a
  match a with
  | ⟨0, _⟩ => show win0_5.index _ (0 : Fin 2) * 256 ≤ (i 0).val ∧ (i 0).val < win0_5.index _ (0 : Fin 2) * 256 + 256; rw [e5a]; show (i 0).val / 256 * 256 ≤ (i 0).val ∧ (i 0).val < (i 0).val / 256 * 256 + 256; omega
  | ⟨1, _⟩ => show win0_5.index _ (1 : Fin 2) * 4096 ≤ (i 1).val ∧ (i 1).val < win0_5.index _ (1 : Fin 2) * 4096 + 4096; rw [e5b]; omega
theorem mem_blk0_6 (t : Fin cfg0.N) (i : S4096x4096.Idx) :
    i ∈ ((cfg0.win 6).blk t).view.set ↔ ∀ a : Fin 2, win0_6.index t a * S256x4096.size a ≤ (i a).val ∧ (i a).val < win0_6.index t a * S256x4096.size a + S256x4096.size a := by
  show i ∈ ((View.whole main_v0_4).slice (win0_6.rect t)).set ↔ _
  rw [View.set_slice_whole, Rect.mem_set_unit]
  exact Iff.rfl
theorem cover0_6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  refine ⟨⟨(i 0).val / 256, by rw [show cfg0.N = 16 from N_0]; omega⟩, flush0_6 _, ?_⟩
  rw [mem_blk0_6]
  obtain ⟨e0a, e0b, e1a, e1b, e2a, e2b, e3a, e3b, e4a, e4b, e5a, e5b, e6a, e6b⟩ := idx0 ⟨(i 0).val / 256, by rw [show cfg0.N = 16 from N_0]; omega⟩
  intro a
  match a with
  | ⟨0, _⟩ => show win0_6.index _ (0 : Fin 2) * 256 ≤ (i 0).val ∧ (i 0).val < win0_6.index _ (0 : Fin 2) * 256 + 256; rw [e6a]; show (i 0).val / 256 * 256 ≤ (i 0).val ∧ (i 0).val < (i 0).val / 256 * 256 + 256; omega
  | ⟨1, _⟩ => show win0_6.index _ (1 : Fin 2) * 4096 ≤ (i 1).val ∧ (i 1).val < win0_6.index _ (1 : Fin 2) * 4096 + 4096; rw [e6b]; omega

/-- The squared norm of row `R` of an array. -/
def nrm (p : S4096x4096.Idx → EReal) (R : Fin 4096) : EReal := ∑ k : Fin 4096, p (ix2 R k) * p (ix2 R k)
/-- The squared difference of two arrays at an index. -/
def sqd (p q : S4096x4096.Idx → EReal) (I : S4096x4096.Idx) : EReal := (p I - q I) * (p I - q I)
/-- The sum of squared differences over the 256 rows of tile `T`. -/
def tileSq (p q : S4096x4096.Idx → EReal) (T : Fin 16) : EReal :=
  ∑ r : Fin 256, ∑ _u : Fin 1, ∑ k : Fin 4096, sqd p q (ix2 (⟨256 * T.val + r.val, by omega⟩ : Fin 4096) k)

def G0col (p : S4096x4096.Idx → EReal) : S4096x1.Idx → EReal := fun i => nrm p ⟨(i 0).val, (i 0).isLt⟩
def G0sq (p q : S4096x4096.Idx → EReal) : S128x128.Idx → EReal := fun i => tileSq p q ⟨(i 0).val / 8, by have h : (i 0).val < 128 := (i 0).isLt; omega⟩

/-- An entry of an input block is the array's entry 256 t rows further down. -/
theorem iblk0_0_apply (t : Fin cfg0.N) (r : Fin 256) (k : Fin 4096) (ht : 256 * t.val + r.val < 4096) :
    iblk0 V c 0 t (ix2 r k) = V c main_arg0 (ix2 (⟨256 * t.val + r.val, ht⟩ : Fin 4096) k) := by
  show V c main_arg0 (((cfg0.win 0).blk t).view.emb (ix2 r k)) = _
  refine congrArg (V c main_arg0) (funext fun a => Fin.ext ?_)
  match a with
  | ⟨0, _⟩ => exact emb0_0_0 t r k
  | ⟨1, _⟩ => exact emb0_0_1 t r k
theorem iblk0_1_apply (t : Fin cfg0.N) (r : Fin 256) (k : Fin 4096) (ht : 256 * t.val + r.val < 4096) :
    iblk0 V c 1 t (ix2 r k) = V c main_arg1 (ix2 (⟨256 * t.val + r.val, ht⟩ : Fin 4096) k) := by
  show V c main_arg1 (((cfg0.win 1).blk t).view.emb (ix2 r k)) = _
  refine congrArg (V c main_arg1) (funext fun a => Fin.ext ?_)
  match a with
  | ⟨0, _⟩ => exact emb0_1_0 t r k
  | ⟨1, _⟩ => exact emb0_1_1 t r k

theorem flushed0_2 (t : Fin cfg0.N) :
    (dat0 V c).flushed 2 t = ((cfg0.win 2).blk t).view.read (Elt Ideal) (G0col (V c main_arg0)) := by
  show (cfg0.win 2).cut (grid0.coords t) ((dat0 V c).after 2 t) = _
  rw [after0_2]; unfold out0_2
  rw [View.canon_unit_zero hz2]
  simp only [View.ld_unit_zero (S := S256x4096) hz2]
  have ht : t.val < 16 := lt_of_lt_of_eq t.isLt (show cfg0.N = 16 from N_0)
  funext j
  obtain ⟨r, u, rfl⟩ : ∃ (r : Fin 256) (u : Fin 1), j = ix2 r u := ⟨j 0, j 1, eq_ix2 j⟩
  show k0_pay2 (F := Ideal) (iblk0 V c 0 t) (ix2 r u) = G0col (V c main_arg0) (((cfg0.win 2).blk t).view.emb (ix2 r u))
  rw [pay2_apply]
  unfold G0col nrm
  refine Finset.sum_congr rfl fun k _ => ?_
  have e : (⟨((((cfg0.win 2).blk t).view.emb (ix2 r u)) 0).val, ((((cfg0.win 2).blk t).view.emb (ix2 r u)) 0).isLt⟩ : Fin 4096) = ⟨256 * t.val + r.val, by omega⟩ :=
    Fin.ext (emb0_2_0 t r u)
  rw [e, iblk0_0_apply V c t r k (by omega)]
theorem flushed0_3 (t : Fin cfg0.N) :
    (dat0 V c).flushed 3 t = ((cfg0.win 3).blk t).view.read (Elt Ideal) (G0col (V c main_arg1)) := by
  show (cfg0.win 3).cut (grid0.coords t) ((dat0 V c).after 3 t) = _
  rw [after0_3]; unfold out0_3
  rw [View.canon_unit_zero hz2]
  simp only [View.ld_unit_zero (S := S256x4096) hz2]
  have ht : t.val < 16 := lt_of_lt_of_eq t.isLt (show cfg0.N = 16 from N_0)
  funext j
  obtain ⟨r, u, rfl⟩ : ∃ (r : Fin 256) (u : Fin 1), j = ix2 r u := ⟨j 0, j 1, eq_ix2 j⟩
  show k0_pay3 (F := Ideal) (iblk0 V c 1 t) (ix2 r u) = G0col (V c main_arg1) (((cfg0.win 3).blk t).view.emb (ix2 r u))
  rw [pay3_apply]
  unfold G0col nrm
  refine Finset.sum_congr rfl fun k _ => ?_
  have e : (⟨((((cfg0.win 3).blk t).view.emb (ix2 r u)) 0).val, ((((cfg0.win 3).blk t).view.emb (ix2 r u)) 0).isLt⟩ : Fin 4096) = ⟨256 * t.val + r.val, by omega⟩ :=
    Fin.ext (emb0_3_0 t r u)
  rw [e, iblk0_1_apply V c t r k (by omega)]
theorem flushed0_4 (t : Fin cfg0.N) :
    (dat0 V c).flushed 4 t = ((cfg0.win 4).blk t).view.read (Elt Ideal) (G0sq (V c main_arg0) (V c main_arg1)) := by
  show (cfg0.win 4).cut (grid0.coords t) ((dat0 V c).after 4 t) = _
  rw [after0_4]; unfold out0_4
  rw [View.canon_unit_zero hz2]
  simp only [View.ld_unit_zero (S := S256x4096) hz2]
  have ht : t.val < 16 := lt_of_lt_of_eq t.isLt (show cfg0.N = 16 from N_0)
  funext j
  obtain ⟨a, b, rfl⟩ : ∃ (a : Fin 8) (b : Fin 128), j = ix2 a b := ⟨j 0, j 1, eq_ix2 j⟩
  show k0_pay1 (F := Ideal) (iblk0 V c 0 t) (iblk0 V c 1 t) (ix2 a b) = G0sq (V c main_arg0) (V c main_arg1) (((cfg0.win 4).blk t).view.emb (ix2 a b))
  rw [pay1_apply]
  unfold G0sq tileSq
  have e : ((((cfg0.win 4).blk t).view.emb (ix2 a b)) 0).val / 8 = t.val := by rw [emb0_4_0 t a b]; omega
  refine Finset.sum_congr rfl fun r _ => Finset.sum_congr rfl fun u _ => Finset.sum_congr rfl fun k _ => ?_
  unfold sqd
  rw [iblk0_0_apply V c t r k (by omega), iblk0_1_apply V c t r k (by omega)]
  simp only [e]
theorem flushed0_5 (t : Fin cfg0.N) :
    (dat0 V c).flushed 5 t = ((cfg0.win 5).blk t).view.read (Elt Ideal) (V c main_arg0) := by
  show (cfg0.win 5).cut (grid0.coords t) ((dat0 V c).after 5 t) = _
  rw [after0_5]; unfold out0_5
  rw [View.canon_unit_zero hz2]
  simp only [View.ld_unit_zero (S := S256x4096) hz2]
  have ht : t.val < 16 := lt_of_lt_of_eq t.isLt (show cfg0.N = 16 from N_0)
  rw [pay4_eq]
  funext j
  obtain ⟨r, k, rfl⟩ : ∃ (r : Fin 256) (k : Fin 4096), j = ix2 r k := ⟨j 0, j 1, eq_ix2 j⟩
  show iblk0 V c 0 t (ix2 r k) = V c main_arg0 (((cfg0.win 5).blk t).view.emb (ix2 r k))
  rw [iblk0_0_apply V c t r k (by omega)]
  refine congrArg (V c main_arg0) (funext fun a => Fin.ext ?_)
  match a with
  | ⟨0, _⟩ => exact (emb0_5_0 t r k).symm
  | ⟨1, _⟩ => exact (emb0_5_1 t r k).symm
theorem flushed0_6 (t : Fin cfg0.N) :
    (dat0 V c).flushed 6 t = ((cfg0.win 6).blk t).view.read (Elt Ideal) (V c main_arg1) := by
  show (cfg0.win 6).cut (grid0.coords t) ((dat0 V c).after 6 t) = _
  rw [after0_6]; unfold out0_6
  rw [View.canon_unit_zero hz2]
  simp only [View.ld_unit_zero (S := S256x4096) hz2]
  have ht : t.val < 16 := lt_of_lt_of_eq t.isLt (show cfg0.N = 16 from N_0)
  rw [pay5_eq]
  funext j
  obtain ⟨r, k, rfl⟩ : ∃ (r : Fin 256) (k : Fin 4096), j = ix2 r k := ⟨j 0, j 1, eq_ix2 j⟩
  show iblk0 V c 1 t (ix2 r k) = V c main_arg1 (((cfg0.win 6).blk t).view.emb (ix2 r k))
  rw [iblk0_1_apply V c t r k (by omega)]
  refine congrArg (V c main_arg1) (funext fun a => Fin.ext ?_)
  match a with
  | ⟨0, _⟩ => exact (emb0_6_0 t r k).symm
  | ⟨1, _⟩ => exact (emb0_6_1 t r k).symm

/-- The five arrays after the call. -/
theorem final0_2 : (dat0 V c).arrAt 2 cfg0.N = G0col (V c main_arg0) :=
  (dat0 V c).arrAt_eq_of_cover 2 _ (fun t _ => flushed0_2 V c t) cover0_2
theorem final0_3 : (dat0 V c).arrAt 3 cfg0.N = G0col (V c main_arg1) :=
  (dat0 V c).arrAt_eq_of_cover 3 _ (fun t _ => flushed0_3 V c t) cover0_3
theorem final0_4 : (dat0 V c).arrAt 4 cfg0.N = G0sq (V c main_arg0) (V c main_arg1) :=
  (dat0 V c).arrAt_eq_of_cover 4 _ (fun t _ => flushed0_4 V c t) cover0_4
theorem final0_5 : (dat0 V c).arrAt 5 cfg0.N = V c main_arg0 :=
  (dat0 V c).arrAt_eq_of_cover 5 _ (fun t _ => flushed0_5 V c t) cover0_5
theorem final0_6 : (dat0 V c).arrAt 6 cfg0.N = V c main_arg1 :=
  (dat0 V c).arrAt_eq_of_cover 6 _ (fun t _ => flushed0_6 V c t) cover0_6

end

end Cert.KernelIdeal.Hand

end
-- ==== Proof.KI.Val1a.lean ====
import proofs.«124657_j17093969838495_2_alg».proof.Proof.KI.Body1b
import proofs.«124657_j17093969838495_2_alg».proof.Proof.KI.Pay
import proofs.«124657_j17093969838495_2_alg».proof.Proof.KI.Pieces

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! The two arrays the Gram call leaves.  At grid point `t = 16 i + j` the kernel forms the 1024×256 tile
    of distances between rows `1024 i …` of the first operand and rows `256 j …` of the second; the
    distance accumulator after that point is the sum of the tiles' sums over `j' ≤ j`, the diagonal
    accumulator the same under the mask; at `j = 15` both are spread over output tile `i`. -/

section
variable (V : (c : Dev nD) → (b : Ref sig .tc) → Buf (Elt Ideal) ((c : Thread nD τ).loc b)) (c : Dev nD)

theorem idx1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, _)

/-- The grid point's two coordinates. -/
theorem coords1 : ∀ t : Fin cfg1.N, (grid1.coords t 0).val = t.val / 16 ∧ (grid1.coords t 1).val = t.val % 16 :=
  (by decide +kernel : ∀ t : Fin grid1.N, _)

theorem emb1_0_0 (t : Fin cfg1.N) (r : Fin 1024) (k : Fin 4096) :
    ((((cfg1.win 0).blk t).view.emb (ix2 r k)) 0).val = 1024 * (t.val / 16) + r.val := by
  obtain ⟨e0a, e0b, e1a, e1b, e2a, e2b, e3a, e3b, e4a, e4b, e5a, e5b⟩ := idx1 t
  show win1_0.index t (0 : Fin 2) * 1024 + 1 * r.val = _
  omega
theorem emb1_0_1 (t : Fin cfg1.N) (r : Fin 1024) (k : Fin 4096) :
    ((((cfg1.win 0).blk t).view.emb (ix2 r k)) 1).val = 4096 * (0) + k.val := by
  obtain ⟨e0a, e0b, e1a, e1b, e2a, e2b, e3a, e3b, e4a, e4b, e5a, e5b⟩ := idx1 t
  show win1_0.index t (1 : Fin 2) * 4096 + 1 * k.val = _
  omega
theorem emb1_1_0 (t : Fin cfg1.N) (r : Fin 256) (k : Fin 4096) :
    ((((cfg1.win 1).blk t).view.emb (ix2 r k)) 0).val = 256 * (t.val % 16) + r.val := by
  obtain ⟨e0a, e0b, e1a, e1b, e2a, e2b, e3a, e3b, e4a, e4b, e5a, e5b⟩ := idx1 t
  show win1_1.index t (0 : Fin 2) * 256 + 1 * r.val = _
  omega
theorem emb1_1_1 (t : Fin cfg1.N) (r : Fin 256) (k : Fin 4096) :
    ((((cfg1.win 1).blk t).view.emb (ix2 r k)) 1).val = 4096 * (0) + k.val := by
  obtain ⟨e0a, e0b, e1a, e1b, e2a, e2b, e3a, e3b, e4a, e4b, e5a, e5b⟩ := idx1 t
  show win1_1.index t (1 : Fin 2) * 4096 + 1 * k.val = _
  omega
theorem emb1_2_0 (t : Fin cfg1.N) (r : Fin 1024) (k : Fin 1) :
    ((((cfg1.win 2).blk t).view.emb (ix2 r k)) 0).val = 1024 * (t.val / 16) + r.val := by
  obtain ⟨e0a, e0b, e1a, e1b, e2a, e2b, e3a, e3b, e4a, e4b, e5a, e5b⟩ := idx1 t
  show win1_2.index t (0 : Fin 2) * 1024 + 1 * r.val = _
  omega
theorem emb1_2_1 (t : Fin cfg1.N) (r : Fin 1024) (k : Fin 1) :
    ((((cfg1.win 2).blk t).view.emb (ix2 r k)) 1).val = 1 * (0) + k.val := by
  obtain ⟨e0a, e0b, e1a, e1b, e2a, e2b, e3a, e3b, e4a, e4b, e5a, e5b⟩ := idx1 t
  show win1_2.index t (1 : Fin 2) * 1 + 1 * k.val = _
  omega
theorem emb1_3_0 (t : Fin cfg1.N) (r : Fin 1) (k : Fin 256) :
    ((((cfg1.win 3).blk t).view.emb (ix2 r k)) 0).val = 1 * (0) + r.val := by
  obtain ⟨e0a, e0b, e1a, e1b, e2a, e2b, e3a, e3b, e4a, e4b, e5a, e5b⟩ := idx1 t
  show win1_3.index t (0 : Fin 2) * 1 + 1 * r.val = _
  omega
theorem emb1_3_1 (t : Fin cfg1.N) (r : Fin 1) (k : Fin 256) :
    ((((cfg1.win 3).blk t).view.emb (ix2 r k)) 1).val = 256 * (t.val % 16) + k.val := by
  obtain ⟨e0a, e0b, e1a, e1b, e2a, e2b, e3a, e3b, e4a, e4b, e5a, e5b⟩ := idx1 t
  show win1_3.index t (1 : Fin 2) * 256 + 1 * k.val = _
  omega
theorem emb1_4_0 (t : Fin cfg1.N) (r : Fin 8) (k : Fin 128) :
    ((((cfg1.win 4).blk t).view.emb (ix2 r k)) 0).val = 8 * (t.val / 16) + r.val := by
  obtain ⟨e0a, e0b, e1a, e1b, e2a, e2b, e3a, e3b, e4a, e4b, e5a, e5b⟩ := idx1 t
  show win1_4.index t (0 : Fin 2) * 8 + 1 * r.val = _
  omega
theorem emb1_4_1 (t : Fin cfg1.N) (r : Fin 8) (k : Fin 128) :
    ((((cfg1.win 4).blk t).view.emb (ix2 r k)) 1).val = 128 * (0) + k.val := by
  obtain ⟨e0a, e0b, e1a, e1b, e2a, e2b, e3a, e3b, e4a, e4b, e5a, e5b⟩ := idx1 t
  show win1_4.index t (1 : Fin 2) * 128 + 1 * k.val = _
  omega
theorem emb1_5_0 (t : Fin cfg1.N) (r : Fin 8) (k : Fin 128) :
    ((((cfg1.win 5).blk t).view.emb (ix2 r k)) 0).val = 8 * (t.val / 16) + r.val := by
  obtain ⟨e0a, e0b, e1a, e1b, e2a, e2b, e3a, e3b, e4a, e4b, e5a, e5b⟩ := idx1 t
  show win1_5.index t (0 : Fin 2) * 8 + 1 * r.val = _
  omega
theorem emb1_5_1 (t : Fin cfg1.N) (r : Fin 8) (k : Fin 128) :
    ((((cfg1.win 5).blk t).view.emb (ix2 r k)) 1).val = 128 * (0) + k.val := by
  obtain ⟨e0a, e0b, e1a, e1b, e2a, e2b, e3a, e3b, e4a, e4b, e5a, e5b⟩ := idx1 t
  show win1_5.index t (1 : Fin 2) * 128 + 1 * k.val = _
  omega

theorem mem_blk1_4 (t : Fin cfg1.N) (i : S32x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v4_0).slice (win1_4.rect t)).set ↔ _
  rw [View.set_slice_whole, Rect.mem_set_unit]
  exact Iff.rfl
theorem cover1_4 (i : S32x128.Idx) : ∃ t : Fin cfg1.N, (cfg1.win 4).flush t = true ∧ i ∈ ((cfg1.win 4).blk t).view.set := by
  have hi0 : (i 0).val < 32 := (i 0).isLt
  have hi1 : (i 1).val < 128 := (i 1).isLt
  have hlt : 16 * ((i 0).val / 8) + 15 < cfg1.N := by rw [show cfg1.N = 64 from N_1]; omega
  refine ⟨⟨16 * ((i 0).val / 8) + 15, hlt⟩, (flush1_4 _).mpr (by show (16 * ((i 0).val / 8) + 15) % 16 = 15; omega), ?_⟩
  rw [mem_blk1_4]
  obtain ⟨e0a, e0b, e1a, e1b, e2a, e2b, e3a, e3b, e4a, e4b, e5a, e5b⟩ := idx1 ⟨16 * ((i 0).val / 8) + 15, hlt⟩
  intro a
  match a with
  | ⟨0, _⟩ => show win1_4.index _ (0 : Fin 2) * 8 ≤ (i 0).val ∧ (i 0).val < win1_4.index _ (0 : Fin 2) * 8 + 8; rw [e4a]; show (16 * ((i 0).val / 8) + 15) / 16 * 8 ≤ (i 0).val ∧ (i 0).val < (16 * ((i 0).val / 8) + 15) / 16 * 8 + 8; omega
  | ⟨1, _⟩ => show win1_4.index _ (1 : Fin 2) * 128 ≤ (i 1).val ∧ (i 1).val < win1_4.index _ (1 : Fin 2) * 128 + 128; rw [e4b]; omega
theorem mem_blk1_5 (t : Fin cfg1.N) (i : S32x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v4_1).slice (win1_5.rect t)).set ↔ _
  rw [View.set_slice_whole, Rect.mem_set_unit]
  exact Iff.rfl
theorem cover1_5 (i : S32x128.Idx) : ∃ t : Fin cfg1.N, (cfg1.win 5).flush t = true ∧ i ∈ ((cfg1.win 5).blk t).view.set := by
  have hi0 : (i 0).val < 32 := (i 0).isLt
  have hi1 : (i 1).val < 128 := (i 1).isLt
  have hlt : 16 * ((i 0).val / 8) + 15 < cfg1.N := by rw [show cfg1.N = 64 from N_1]; omega
  refine ⟨⟨16 * ((i 0).val / 8) + 15, hlt⟩, (flush1_5 _).mpr (by show (16 * ((i 0).val / 8) + 15) % 16 = 15; omega), ?_⟩
  rw [mem_blk1_5]
  obtain ⟨e0a, e0b, e1a, e1b, e2a, e2b, e3a, e3b, e4a, e4b, e5a, e5b⟩ := idx1 ⟨16 * ((i 0).val / 8) + 15, hlt⟩
  intro a
  match a with
  | ⟨0, _⟩ => show win1_5.index _ (0 : Fin 2) * 8 ≤ (i 0).val ∧ (i 0).val < win1_5.index _ (0 : Fin 2) * 8 + 8; rw [e5a]; show (16 * ((i 0).val / 8) + 15) / 16 * 8 ≤ (i 0).val ∧ (i 0).val < (16 * ((i 0).val / 8) + 15) / 16 * 8 + 8; omega
  | ⟨1, _⟩ => show win1_5.index _ (1 : Fin 2) * 128 ≤ (i 1).val ∧ (i 1).val < win1_5.index _ (1 : Fin 2) * 128 + 128; rw [e5b]; omega

/-- The sum of the distance tile of grid point `t`, in the kernel's own arithmetic over the point's blocks. -/
def Tpt (t : Fin cfg1.N) : EReal :=
  ∑ r : Fin 1024, ∑ _u : Fin 1, ∑ q : Fin 256, k1_pay6 (F := Ideal) (iblk1 V c 0 t) (iblk1 V c 1 t) (iblk1 V c 2 t) (iblk1 V c 3 t) (ix2 r q)
/-- The same under the diagonal mask. -/
def Upt (t : Fin cfg1.N) : EReal :=
  ∑ r : Fin 1024, ∑ _u : Fin 1, ∑ q : Fin 256, Scalar.select (k1_pay8 (grid1.coords t) (ix2 r q)) (k1_pay6 (F := Ideal) (iblk1 V c 0 t) (iblk1 V c 1 t) (iblk1 V c 2 t) (iblk1 V c 3 t) (ix2 r q)) (0 : EReal)
def TptN (n : ℕ) : EReal := if h : n < cfg1.N then Tpt V c ⟨n, h⟩ else 0
def UptN (n : ℕ) : EReal := if h : n < cfg1.N then Upt V c ⟨n, h⟩ else 0

/-- The distance accumulator after point `n`: the tiles' sums since the last restart. -/
theorem accD : ∀ (n : ℕ) (hn : n < cfg1.N), (outsAt1 V c n hn).2.2.1 (ix2 (0 : Fin 1) (0 : Fin 1)) = ∑ s ∈ Finset.range (n % 16 + 1), TptN V c (16 * (n / 16) + s) := by
  intro n
  induction n with
  | zero =>
    intro hn
    rw [outsAt1_A V c ⟨0, hn⟩ (Nat.zero_mod _) (show ¬(0 % 16 = 15) from by omega)]
    unfold stepA; dsimp only
    rw [sout1_A_0_eq, pay7_apply, pay4z_apply, zero_add]
    show _ = ∑ s ∈ Finset.range 1, TptN V c (16 * 0 + s)
    rw [Finset.sum_range_one]
    unfold TptN; rw [dif_pos (show 16 * 0 + 0 < cfg1.N from hn)]; rfl
  | succ n ih =>
    intro hn
    have hN : n + 1 < 64 := lt_of_lt_of_eq hn (show cfg1.N = 64 from N_1)
    have hpt : TptN V c (n + 1) = Tpt V c ⟨n + 1, hn⟩ := by unfold TptN; rw [dif_pos hn]
    by_cases h0 : (n + 1) % 16 = 0
    · have h1 : ¬(n + 1) % 16 = 15 := by omega
      rw [outsAt1_A V c ⟨n + 1, hn⟩ h0 h1]
      unfold stepA; dsimp only
      rw [sout1_A_0_eq, pay7_apply, pay4z_apply, zero_add, h0, Finset.sum_range_one]
      have e : 16 * ((n + 1) / 16) + 0 = n + 1 := by omega
      rw [e, hpt]; rfl
    · have hprev : (outsAt1 V c ((⟨n + 1, hn⟩ : Fin cfg1.N).val - 1) (Nat.lt_of_le_of_lt (Nat.sub_le _ _) hn)).2.2.1 (ix2 (0 : Fin 1) (0 : Fin 1))
          = ∑ s ∈ Finset.range (n % 16 + 1), TptN V c (16 * (n / 16) + s) := ih (Nat.lt_of_succ_lt hn)
      have hdiv : (n + 1) / 16 = n / 16 := by omega
      have hmod : (n + 1) % 16 = n % 16 + 1 := by omega
      rw [hdiv, hmod, Finset.sum_range_succ _ (n % 16 + 1), show 16 * (n / 16) + (n % 16 + 1) = n + 1 from by omega, hpt, ← hprev]
      by_cases h1 : (n + 1) % 16 = 15
      · rw [outsAt1_C V c ⟨n + 1, hn⟩ h0 h1]
        unfold stepC; dsimp only
        rw [sout1_C_0_eq, pay7_apply]; rfl
      · rw [outsAt1_B V c ⟨n + 1, hn⟩ h0 h1]
        unfold stepB; dsimp only
        rw [sout1_B_0_eq, pay7_apply]; rfl

/-- The diagonal accumulator after point `n`. -/
theorem accT : ∀ (n : ℕ) (hn : n < cfg1.N), (outsAt1 V c n hn).2.2.2 (ix2 (0 : Fin 1) (0 : Fin 1)) = ∑ s ∈ Finset.range (n % 16 + 1), UptN V c (16 * (n / 16) + s) := by
  intro n
  induction n with
  | zero =>
    intro hn
    rw [outsAt1_A V c ⟨0, hn⟩ (Nat.zero_mod _) (show ¬(0 % 16 = 15) from by omega)]
    unfold stepA; dsimp only
    rw [sout1_A_1_eq, pay1d_apply, pay5z_apply, zero_add]
    show _ = ∑ s ∈ Finset.range 1, UptN V c (16 * 0 + s)
    rw [Finset.sum_range_one]
    unfold UptN; rw [dif_pos (show 16 * 0 + 0 < cfg1.N from hn)]; rfl
  | succ n ih =>
    intro hn
    have hN : n + 1 < 64 := lt_of_lt_of_eq hn (show cfg1.N = 64 from N_1)
    have hpt : UptN V c (n + 1) = Upt V c ⟨n + 1, hn⟩ := by unfold UptN; rw [dif_pos hn]
    by_cases h0 : (n + 1) % 16 = 0
    · have h1 : ¬(n + 1) % 16 = 15 := by omega
      rw [outsAt1_A V c ⟨n + 1, hn⟩ h0 h1]
      unfold stepA; dsimp only
      rw [sout1_A_1_eq, pay1d_apply, pay5z_apply, zero_add, h0, Finset.sum_range_one]
      have e : 16 * ((n + 1) / 16) + 0 = n + 1 := by omega
      rw [e, hpt]; rfl
    · have hprev : (outsAt1 V c ((⟨n + 1, hn⟩ : Fin cfg1.N).val - 1) (Nat.lt_of_le_of_lt (Nat.sub_le _ _) hn)).2.2.2 (ix2 (0 : Fin 1) (0 : Fin 1))
          = ∑ s ∈ Finset.range (n % 16 + 1), UptN V c (16 * (n / 16) + s) := ih (Nat.lt_of_succ_lt hn)
      have hdiv : (n + 1) / 16 = n / 16 := by omega
      have hmod : (n + 1) % 16 = n % 16 + 1 := by omega
      rw [hdiv, hmod, Finset.sum_range_succ _ (n % 16 + 1), show 16 * (n / 16) + (n % 16 + 1) = n + 1 from by omega, hpt, ← hprev]
      by_cases h1 : (n + 1) % 16 = 15
      · rw [outsAt1_C V c ⟨n + 1, hn⟩ h0 h1]
        unfold stepC; dsimp only
        rw [sout1_C_1_eq, pay1d_apply]; rfl
      · rw [outsAt1_B V c ⟨n + 1, hn⟩ h0 h1]
        unfold stepB; dsimp only
        rw [sout1_B_1_eq, pay1d_apply]; rfl

/-- Output tile `i` of the distance sums: the sixteen tiles of row tile `i` added up. -/
def G1d : S32x128.Idx → EReal := fun I => ∑ s ∈ Finset.range (15 + 1), TptN V c (16 * ((I 0).val / 8) + s)
def G1t : S32x128.Idx → EReal := fun I => ∑ s ∈ Finset.range (15 + 1), UptN V c (16 * ((I 0).val / 8) + s)

theorem flushed1_4 (t : Fin cfg1.N) (hf : (cfg1.win 4).flush t = true) :
    (dat1 V c).flushed 4 t = ((cfg1.win 4).blk t).view.read (Elt Ideal) (G1d V c) := by
  have h1 : t.val % 16 = 15 := (flush1_4 t).mp hf
  have h0 : ¬t.val % 16 = 0 := by omega
  have hN : t.val < 64 := lt_of_lt_of_eq t.isLt (show cfg1.N = 64 from N_1)
  show (cfg1.win 4).cut (grid1.coords t) ((dat1 V c).after 4 t) = _
  rw [after1_4, outsAt1_C V c t h0 h1]
  unfold stepC; dsimp only
  rw [out1_C_4_eq]
  funext j
  obtain ⟨a, b, rfl⟩ : ∃ (a : Fin 8) (b : Fin 128), j = ix2 a b := ⟨j 0, j 1, eq_ix2 j⟩
  show k1_pay2 (F := Ideal) _ (ix2 a b) = G1d V c (((cfg1.win 4).blk t).view.emb (ix2 a b))
  rw [pay2o_apply]
  have hs := accD V c t.val t.isLt
  rw [outsAt1_C V c t h0 h1] at hs
  unfold stepC at hs; dsimp only at hs
  rw [sout1_C_0_eq] at hs
  rw [hs, h1]
  unfold G1d
  have e : ((((cfg1.win 4).blk t).view.emb (ix2 a b)) 0).val / 8 = t.val / 16 := by rw [emb1_4_0 t a b]; omega
  simp only [e]

theorem flushed1_5 (t : Fin cfg1.N) (hf : (cfg1.win 5).flush t = true) :
    (dat1 V c).flushed 5 t = ((cfg1.win 5).blk t).view.read (Elt Ideal) (G1t V c) := by
  have h1 : t.val % 16 = 15 := (flush1_5 t).mp hf
  have h0 : ¬t.val % 16 = 0 := by omega
  have hN : t.val < 64 := lt_of_lt_of_eq t.isLt (show cfg1.N = 64 from N_1)
  show (cfg1.win 5).cut (grid1.coords t) ((dat1 V c).after 5 t) = _
  rw [after1_5, outsAt1_C V c t h0 h1]
  unfold stepC; dsimp only
  rw [out1_C_5_eq]
  funext j
  obtain ⟨a, b, rfl⟩ : ∃ (a : Fin 8) (b : Fin 128), j = ix2 a b := ⟨j 0, j 1, eq_ix2 j⟩
  show k1_pay3 (F := Ideal) _ (ix2 a b) = G1t V c (((cfg1.win 5).blk t).view.emb (ix2 a b))
  rw [pay3o_apply]
  have hs := accT V c t.val t.isLt
  rw [outsAt1_C V c t h0 h1] at hs
  unfold stepC at hs; dsimp only at hs
  rw [sout1_C_1_eq] at hs
  rw [hs, h1]
  unfold G1t
  have e : ((((cfg1.win 5).blk t).view.emb (ix2 a b)) 0).val / 8 = t.val / 16 := by rw [emb1_5_0 t a b]; omega
  simp only [e]

theorem final1_4 : (dat1 V c).arrAt 4 cfg1.N = G1d V c :=
  (dat1 V c).arrAt_eq_of_cover 4 _ (fun t hf => flushed1_4 V c t hf) cover1_4
theorem final1_5 : (dat1 V c).arrAt 5 cfg1.N = G1t V c :=
  (dat1 V c).arrAt_eq_of_cover 5 _ (fun t hf => flushed1_5 V c t hf) cover1_5

end

end Cert.KernelIdeal.Hand

end
-- ==== Proof.KI.Val2.lean ====
import proofs.«124657_j17093969838495_2_alg».proof.Proof.KI.Run
import proofs.«124657_j17093969838495_2_alg».proof.Proof.KI.Val0
import proofs.«124657_j17093969838495_2_alg».proof.Proof.KI.Val1a

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! Reading the run's valuations: what the Gram call finds in its four operand arrays, and the result
    buffer as the host operations' term of the three small arrays the two calls leave. -/

open Idealize.ShloMosaic.StableHlo

variable (m : (ℓ : Loc nD τ sig) → Buf (Elt Ideal) ℓ) (c : Dev nD)

theorem rd_p1 : BV2 m c main_v0_3 = m ((c : Thread nD τ).loc main_arg0) :=
  (StableHlo.after_of_writes_sub hostOps1 _ hostOps1_writes (by decide)).trans ((B1_arr m c 5).trans (final0_5 (BV0 m) c))
theorem rd_p2 : BV2 m c main_v0_4 = m ((c : Thread nD τ).loc main_arg1) :=
  (StableHlo.after_of_writes_sub hostOps1 _ hostOps1_writes (by decide)).trans ((B1_arr m c 6).trans (final0_6 (BV0 m) c))
theorem rd_n1 : BV2 m c main_v0_0 = G0col (m ((c : Thread nD τ).loc main_arg0)) :=
  (StableHlo.after_of_writes_sub hostOps1 _ hostOps1_writes (by decide)).trans ((B1_arr m c 2).trans (final0_2 (BV0 m) c))
theorem rd_n2col : B1 m c (Proc.devRef .tc main_v0_1) = G0col (m ((c : Thread nD τ).loc main_arg1)) :=
  (B1_arr m c 3).trans (final0_3 (BV0 m) c)
theorem rd_ps : B1 m c (Proc.devRef .tc main_v0_2) = G0sq (m ((c : Thread nD τ).loc main_arg0)) (m ((c : Thread nD τ).loc main_arg1)) :=
  (B1_arr m c 4).trans (final0_4 (BV0 m) c)

attribute [local irreducible] Host.reduceAdd in
theorem rd_n2' (W : Valuation τ sig (Elt Ideal)) :
    StableHlo.after hostOps1 W (Proc.devRef .tc main_v3) = shapeCast S1x4096 (W (Proc.devRef .tc main_v0_1)) shapeCasts_S4096x1_S1x4096 := by
  simp only [StableHlo.after_cons, StableHlo.after_nil]
  rfl
theorem rd_n2 : BV2 m c main_v3 = shapeCast S1x4096 (G0col (m ((c : Thread nD τ).loc main_arg1))) shapeCasts_S4096x1_S1x4096 := by
  show StableHlo.after hostOps1 (B1 m c) (Proc.devRef .tc main_v3) = _
  rw [rd_n2', rd_n2col]

attribute [local irreducible] Host.reduceAdd in
theorem rd_v2' (W : Valuation τ sig (Elt Ideal)) :
    StableHlo.after hostOps1 W (Proc.devRef .tc main_v2)
      = Host.divf (F := Ideal) (Host.reduceAdd (W (Proc.devRef .tc main_v0_2)) (constant S_ .f32 0x00000000#32) reducesTo_S128x128_S_d0_1 h_S_) (constant S_ .f32 0x44800000#32) := by
  simp only [StableHlo.after_cons, StableHlo.after_nil]
  rfl
theorem rd_v2 : B3 m c (Proc.devRef .tc main_v2)
    = Host.divf (F := Ideal) (Host.reduceAdd (G0sq (m ((c : Thread nD τ).loc main_arg0)) (m ((c : Thread nD τ).loc main_arg1))) (constant S_ .f32 0x00000000#32) reducesTo_S128x128_S_d0_1 h_S_) (constant S_ .f32 0x44800000#32) := by
  rw [B3_of_ne m c main_v2 (by decide)]
  show StableHlo.after hostOps1 (B1 m c) (Proc.devRef .tc main_v2) = _
  rw [rd_v2', rd_ps]
theorem rd_sd : B3 m c (Proc.devRef .tc main_v4_0) = G1d (BV2 m) c := (B3_arr m c 4).trans (final1_4 (BV2 m) c)
theorem rd_st : B3 m c (Proc.devRef .tc main_v4_1) = G1t (BV2 m) c := (B3_arr m c 5).trans (final1_5 (BV2 m) c)

/-- The kernel program's last fifteen host operations, as one function of what they read. -/
def kerOut (v2 : FVec Ideal S_ .f32) (sd st : FVec Ideal S32x128 .f32) : FVec Ideal S_ .f32 :=
  addf (Host.divf v2 (constant S_ .f32 0x45800000#32))
    (Host.divf (Host.negf (subf
        (Host.divf (Host.reduceAdd sd (constant S_ .f32 0x00000000#32) reducesTo_S32x128_S_d0_1 h_S_) (constant S_ .f32 0x44800000#32))
        (Host.divf (Host.reduceAdd st (constant S_ .f32 0x00000000#32) reducesTo_S32x128_S_d0_1 h_S_) (constant S_ .f32 0x44800000#32))))
      (constant S_ .f32 0x4B7FF000#32))

attribute [local irreducible] Host.reduceAdd in
theorem rd_out' (W : Valuation τ sig (Elt Ideal)) :
    StableHlo.after hostOps2 W (Proc.devRef .tc main_v13)
      = kerOut (W (Proc.devRef .tc main_v2)) (W (Proc.devRef .tc main_v4_0)) (W (Proc.devRef .tc main_v4_1)) := by
  simp only [StableHlo.after_cons, StableHlo.after_nil]
  rfl
theorem rd_out : B4 m c (Proc.devRef .tc main_v13)
    = kerOut (Host.divf (F := Ideal) (Host.reduceAdd (G0sq (m ((c : Thread nD τ).loc main_arg0)) (m ((c : Thread nD τ).loc main_arg1))) (constant S_ .f32 0x00000000#32) reducesTo_S128x128_S_d0_1 h_S_) (constant S_ .f32 0x44800000#32))
        (G1d (BV2 m) c) (G1t (BV2 m) c) := by
  show StableHlo.after hostOps2 (B3 m c) (Proc.devRef .tc main_v13) = _
  rw [rd_out', rd_v2, rd_sd, rd_st]

end Cert.KernelIdeal.Hand

end
-- ==== Proof.KI.Alg.lean ====
import Idealize.ShloMosaic.PureOps.Ideal
import Idealize.ShloMosaic.PureOps.Ideal.Laws
import Idealize.ShloMosaic.Lib.ValueIdx

noncomputable section

namespace Cert.KernelIdeal.Hand

open Idealize.ShloMosaic Idealize.ShloMosaic.ValueIdx
open scoped BigOperators

/-! Two facts about finite sums the kernel's tiling needs: a sum over `n·m` indices is the sum over `n`
    tiles of the sums over the `m` indices of a tile; and a value added up `n` times and divided by
    `n` is the value, at every extended real. -/

theorem tile_lt {n m : ℕ} (T : Fin n) (r : Fin m) : m * T.val + r.val < n * m := by
  have h1 := T.isLt; have h2 := r.isLt
  calc m * T.val + r.val < m * T.val + m := by omega
    _ = m * (T.val + 1) := by ring
    _ ≤ m * n := Nat.mul_le_mul_left m (by omega)
    _ = n * m := Nat.mul_comm m n

/-- A sum over `n·m` indices, tile by tile. -/
theorem sum_tiles {M : Type*} [AddCommMonoid M] (n m N : ℕ) (h : n * m = N) (f : Fin N → M) :
    ∑ R : Fin N, f R = ∑ T : Fin n, ∑ r : Fin m, f ⟨m * T.val + r.val, h ▸ tile_lt T r⟩ := by
  subst h
  rw [← Fintype.sum_prod_type']
  refine (Fintype.sum_equiv finProdFinEquiv _ _ fun x => ?_).symm
  refine congrArg f (Fin.ext ?_)
  show m * x.1.val + x.2.val = x.2.val + m * x.1.val
  omega

theorem nsmul_coe' (n : ℕ) (y : ℝ) : n • (y : EReal) = ((n * y : ℝ) : EReal) := by
  induction n with
  | zero => simp
  | succ n ih => rw [succ_nsmul, ih, ← EReal.coe_add]; congr 1; push_cast; ring
theorem succ_nsmul_top (n : ℕ) : (n + 1) • (⊤ : EReal) = ⊤ := by
  induction n with
  | zero => simp
  | succ n ih => rw [succ_nsmul, ih]; rfl
theorem succ_nsmul_bot (n : ℕ) : (n + 1) • (⊥ : EReal) = ⊥ := by
  induction n with
  | zero => simp
  | succ n ih => rw [succ_nsmul, ih]; rfl

/-- A value added up `n + 1` times and divided by `n + 1` is the value. -/
theorem nsmul_mul_inv (n : ℕ) (Y : EReal) : ((n + 1) • Y) * (((1 / ((n + 1 : ℕ) : ℝ) : ℝ)) : EReal) = Y := by
  have hpos : (0 : ℝ) < 1 / ((n + 1 : ℕ) : ℝ) := by positivity
  induction Y using EReal.rec with
  | bot => rw [succ_nsmul_bot]; exact EReal.bot_mul_coe_of_pos hpos
  | coe y =>
    rw [nsmul_coe', ← EReal.coe_mul]
    congr 1
    have : ((n + 1 : ℕ) : ℝ) ≠ 0 := by positivity
    field_simp
  | top => rw [succ_nsmul_top]; exact EReal.top_mul_coe_of_pos hpos

theorem ofBits_1024 : Ideal.ofBits .f32 0x44800000#32 = ((1024 : ℝ) : EReal) := by
  simp [Ideal.ofBits, Ideal.ieee, -EReal.coe_mul]; norm_num

/-- The kernel's division of a tile-spread sum by the tile's 1024 cells. -/
theorem div1024 (Y : EReal) : Ideal.div (0 + ∑ _a : Fin 8, ∑ _b : Fin 128, Y) (Ideal.ofBits .f32 0x44800000#32) = Y := by
  rw [zero_add, ofBits_1024, Ideal.div_coe (by norm_num : (1024 : ℝ) ≠ 0)]
  have e : (∑ _a : Fin 8, ∑ _b : Fin 128, Y) = (1023 + 1) • Y := by
    simp only [Finset.sum_const, Finset.card_univ, Fintype.card_fin, smul_smul]; norm_num
  rw [e]
  have := nsmul_mul_inv 1023 Y
  norm_num at this ⊢
  exact this

end Cert.KernelIdeal.Hand

end
-- ==== Proof.LibColumnRow.lean ====
/-
  One layout fact for a column laid out as a row (`w.reshape(1, a)` of an `[a, 1]` array), read at an index built
  from literal coordinates: the row's entry `(0, k)` is the column's entry `(k, 0)`. It completes the library's
  small-shape lemmas, which have the vector forms `[a] → [1, a]` and `[1, a] → [a]`.
-/
import Idealize.ShloMosaic.Lib.Pipeline.Value
import Idealize.ShloMosaic.Lib.ValueIdx

noncomputable section

namespace Cert.Lib.ColumnRow

open Idealize.ShloMosaic Idealize.ShloMosaic.ValueIdx

/-- A column `[a, 1]` cast to the row `[1, a]` reads, at `(0, k)`, the column's entry `k`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

end Cert.Lib.ColumnRow

end
-- ==== Proof.Ref.Run.lean ====
import proofs.«124657_j17093969838495_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! The reference program as one line of host operations (the diagonal-sum helper and the selection
    helper it calls written out at the call), and its run: every execution ends with the result buffer
    at the operations' composed term of the two argument arrays, the arguments unchanged. -/

/-- The all-pairs distance matrix: row norms plus column norms minus twice the Gram matrix. -/
def dist (p1 p2 : FVec F S4096x4096 .f32) : FVec F S4096x4096 .f32 :=
  subf (addf (broadcastInDim S4096x4096 ![0, 1] bcast_S4096x1_S4096x4096_0_1 (broadcastInDim S4096x1 ![0] bcast_S4096_S4096x1_0
          (Host.reduceAdd (mulf p1 p1) (constant S_ .f32 0x00000000#32) reducesTo_S4096x4096_S4096_d1 h_S_)))
        (broadcastInDim S4096x4096 ![0, 1] bcast_S1x4096_S4096x4096_0_1 (broadcastInDim S1x4096 ![1] bcast_S4096_S1x4096_1
          (Host.reduceAdd (mulf p2 p2) (constant S_ .f32 0x00000000#32) reducesTo_S4096x4096_S4096_d1 h_S_))))
    (mulf (broadcastInDim S4096x4096 ![] bcast_S_S4096x4096 (constant S_ .f32 0x40000000#32))
      (Host.dotGeneral dot_S4096x4096_S4096x4096_S4096x4096_1_0_0_1_n_n none p1 (transpose S4096x4096 [1, 0] p2 transposes_S4096x4096_S4096x4096_1_0)))

/-- The mask of the diagonal: row index equal to column index. -/
def diagMask : IVec S4096x4096 1 :=
  cmpi .eq (addi (iotaInDim S4096x4096 32 0) (broadcastInDim S4096x4096 ![] bcast_S_S4096x4096 (constantI S_ 32 0#32))) (iotaInDim S4096x4096 32 1)

/-- The reference's result: the mean squared row distance plus minus the off-diagonal distance sum over the number of pairs. -/
def refOut (p1 p2 : FVec F S4096x4096 .f32) : FVec F S_ .f32 :=
  addf (Host.divf (Host.reduceAdd (mulf (subf p1 p2) (subf p1 p2)) (constant S_ .f32 0x00000000#32) reducesTo_S4096x4096_S_d0_1 h_S_) (constant S_ .f32 0x45800000#32))
    (Host.divf (Host.negf (subf (Host.reduceAdd (dist p1 p2) (constant S_ .f32 0x00000000#32) reducesTo_S4096x4096_S_d0_1 h_S_)
        (Host.reduceAdd (select diagMask (dist p1 p2) (broadcastInDim S4096x4096 ![] bcast_S_S4096x4096 (constant S_ .f32 0x00000000#32))) (constant S_ .f32 0x00000000#32) reducesTo_S4096x4096_S_d0_1 h_S_)))
      (constant S_ .f32 0x4B7FF000#32))

abbrev ops : List (HloOp τ sig (Elt F)) :=
  [ StableHlo.binary main_arg0 main_arg1 main_v0 (subf : (⟨S4096x4096, .f32⟩ : BufTy).Contents (Elt F) → (⟨S4096x4096, .f32⟩ : BufTy).Contents (Elt F) → (⟨S4096x4096, .f32⟩ : BufTy).Contents (Elt F)),
    StableHlo.binary main_v0 main_v0 main_v1 (mulf : (⟨S4096x4096, .f32⟩ : BufTy).Contents (Elt F) → (⟨S4096x4096, .f32⟩ : BufTy).Contents (Elt F) → (⟨S4096x4096, .f32⟩ : BufTy).Contents (Elt F)),
    StableHlo.nullary main_cst (constant S_ .f32 0x00000000#32),
    StableHlo.binary main_v1 main_cst main_v2 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.nullary main_cst_0 (constant S_ .f32 0x45800000#32),
    StableHlo.binary main_v2 main_cst_0 main_v3 (Host.divf : (⟨S_, .f32⟩ : BufTy).Contents (Elt F) → (⟨S_, .f32⟩ : BufTy).Contents (Elt F) → (⟨S_, .f32⟩ : BufTy).Contents (Elt F)),
    StableHlo.binary main_arg0 main_arg0 main_v4 (mulf : (⟨S4096x4096, .f32⟩ : BufTy).Contents (Elt F) → (⟨S4096x4096, .f32⟩ : BufTy).Contents (Elt F) → (⟨S4096x4096, .f32⟩ : BufTy).Contents (Elt F)),
    StableHlo.nullary main_cst_1 (constant S_ .f32 0x00000000#32),
    StableHlo.binary main_v4 main_cst_1 main_v5 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_arg1 main_arg1 main_v6 (mulf : (⟨S4096x4096, .f32⟩ : BufTy).Contents (Elt F) → (⟨S4096x4096, .f32⟩ : BufTy).Contents (Elt F) → (⟨S4096x4096, .f32⟩ : BufTy).Contents (Elt F)),
    StableHlo.nullary main_cst_2 (constant S_ .f32 0x00000000#32),
    StableHlo.binary main_v6 main_cst_2 main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.unary main_arg1 main_v8 ((transpose S4096x4096 [1, 0] · transposes_S4096x4096_S4096x4096_1_0) : (⟨S4096x4096, .f32⟩ : BufTy).Contents (Elt F) → (⟨S4096x4096, .f32⟩ : BufTy).Contents (Elt F)),
    StableHlo.binary main_arg0 main_v8 main_v9 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    StableHlo.unary main_v5 main_v10 (broadcastInDim S4096x1 ![0] bcast_S4096_S4096x1_0 : (⟨S4096, .f32⟩ : BufTy).Contents (Elt F) → (⟨S4096x1, .f32⟩ : BufTy).Contents (Elt F)),
    StableHlo.unary main_v7 main_v11 (broadcastInDim S1x4096 ![1] bcast_S4096_S1x4096_1 : (⟨S4096, .f32⟩ : BufTy).Contents (Elt F) → (⟨S1x4096, .f32⟩ : BufTy).Contents (Elt F)),
    StableHlo.unary main_v10 main_v12 (broadcastInDim S4096x4096 ![0, 1] bcast_S4096x1_S4096x4096_0_1 : (⟨S4096x1, .f32⟩ : BufTy).Contents (Elt F) → (⟨S4096x4096, .f32⟩ : BufTy).Contents (Elt F)),
    StableHlo.unary main_v11 main_v13 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v12 main_v13 main_v14 (addf : (⟨S4096x4096, .f32⟩ : BufTy).Contents (Elt F) → (⟨S4096x4096, .f32⟩ : BufTy).Contents (Elt F) → (⟨S4096x4096, .f32⟩ : BufTy).Contents (Elt F)),
    StableHlo.nullary main_cst_3 (constant S_ .f32 0x40000000#32),
    StableHlo.unary main_cst_3 main_v15 (broadcastInDim S4096x4096 ![] bcast_S_S4096x4096 : (⟨S_, .f32⟩ : BufTy).Contents (Elt F) → (⟨S4096x4096, .f32⟩ : BufTy).Contents (Elt F)),
    StableHlo.binary main_v15 main_v9 main_v16 (mulf : (⟨S4096x4096, .f32⟩ : BufTy).Contents (Elt F) → (⟨S4096x4096, .f32⟩ : BufTy).Contents (Elt F) → (⟨S4096x4096, .f32⟩ : BufTy).Contents (Elt F)),
    StableHlo.binary main_v14 main_v16 main_v17 (subf : (⟨S4096x4096, .f32⟩ : BufTy).Contents (Elt F) → (⟨S4096x4096, .f32⟩ : BufTy).Contents (Elt F) → (⟨S4096x4096, .f32⟩ : BufTy).Contents (Elt F)),
    StableHlo.nullary main_cst_4 (constant S_ .f32 0x00000000#32),
    StableHlo.binary main_v17 main_cst_4 main_v18 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    StableHlo.TRef.nullary main_call0.v0 (iotaInDim S4096x4096 32 0),
    StableHlo.TRef.nullary main_call0.v1 (iotaInDim S4096x4096 32 1),
    StableHlo.TRef.nullary main_call0.c (constantI S_ 32 0#32),
    StableHlo.TRef.unary main_call0.c main_call0.v2 (broadcastInDim S4096x4096 ![] bcast_S_S4096x4096),
    StableHlo.TRef.binary main_call0.v0 main_call0.v2 main_call0.v3 addi,
    StableHlo.TRef.binary main_call0.v3 main_call0.v1 main_call0.v4 (cmpi .eq),
    StableHlo.TRef.nullary main_call0.cst (constant S_ .f32 0x00000000#32),
    StableHlo.TRef.unary main_call0.cst main_call0.v5 (broadcastInDim S4096x4096 ![] bcast_S_S4096x4096),
    StableHlo.TRef.ternary main_call0.v4 (.of main_v17) main_call0.v5 main_call0.call0.v0 select,
    StableHlo.TRef.nullary main_call0.cst_0 (constant S_ .f32 0x00000000#32),
    StableHlo.TRef.binary main_call0.call0.v0 main_call0.cst_0 main_call0.v7 (fun x v => Host.reduceAdd x v reducesTo_S4096x4096_S_d0_1 h_S_),
    StableHlo.binary main_v18 main_v19 main_v20 (subf : (⟨S_, .f32⟩ : BufTy).Contents (Elt F) → (⟨S_, .f32⟩ : BufTy).Contents (Elt F) → (⟨S_, .f32⟩ : BufTy).Contents (Elt F)),
    StableHlo.unary main_v20 main_v21 (Host.negf : (⟨S_, .f32⟩ : BufTy).Contents (Elt F) → (⟨S_, .f32⟩ : BufTy).Contents (Elt F)),
    StableHlo.nullary main_cst_5 (constant S_ .f32 0x4B7FF000#32),
    StableHlo.binary main_v21 main_cst_5 main_v22 (Host.divf : (⟨S_, .f32⟩ : BufTy).Contents (Elt F) → (⟨S_, .f32⟩ : BufTy).Contents (Elt F) → (⟨S_, .f32⟩ : BufTy).Contents (Elt F)),
    StableHlo.binary main_v3 main_v22 main_v23 (addf : (⟨S_, .f32⟩ : BufTy).Contents (Elt F) → (⟨S_, .f32⟩ : BufTy).Contents (Elt F) → (⟨S_, .f32⟩ : BufTy).Contents (Elt F)) ]

set_option maxRecDepth 4096 in
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., binary_bufs_sub .., unary_bufs_sub .., nullary_bufs_sub .., binary_bufs_sub .., binary_bufs_sub ..⟩

attribute [local irreducible] Host.reduceAdd in
set_option maxRecDepth 8192 in
set_option maxHeartbeats 1000000 in
theorem out_eq (V : Valuation τ sig (Elt F)) :
    after ops V (main_v23 : DevRef τ sig) = refOut (V (main_arg0 : DevRef τ sig)) (V (main_arg1 : DevRef τ sig)) := by
  simp only [after_cons, after_nil]
  rfl
theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl

/-- Every weakly fair execution of the reference terminates with the result at `refOut` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.Hand

end
-- ==== Proof.Ref.Val.lean ====
import proofs.«124657_j17093969838495_2_alg».proof.Proof.Ref.Run
import proofs.«124657_j17093969838495_2_alg».proof.Proof.KI.Val0
import Idealize.ShloMosaic.Lib.IdealHost
import Idealize.ShloMosaic.Lib.ValueLayout

set_option maxRecDepth 16384

noncomputable section

namespace Cert.ReferenceIdeal.Hand

open Cert.ReferenceIdeal Cert.ReferenceIdeal.Gen Idealize.ShloMosaic Idealize.ShloMosaic.ValueIdx
open Cert.KernelIdeal.Hand (nrm sqd two)
open scoped BigOperators

/-! The reference's result at the extended reals, as sums over the two argument arrays. -/

theorem bc_col_apply {α : Type} (x : S4096x1.Idx → α) (R Q : Fin 4096) :
    broadcastInDim S4096x4096 ![0, 1] bcast_S4096x1_S4096x4096_0_1 x (ix2 R Q) = x (ix2 R (0 : Fin 1)) := by
  refine broadcastInDim_apply _ _ x (ix2 R Q) (ix2 R (0 : Fin 1)) fun a => ?_
  match a with
  | ⟨0, _⟩ => rfl
  | ⟨1, _⟩ => rfl
theorem bc_row_apply {α : Type} (x : S1x4096.Idx → α) (R Q : Fin 4096) :
    broadcastInDim S4096x4096 ![0, 1] bcast_S1x4096_S4096x4096_0_1 x (ix2 R Q) = x (ix2 (0 : Fin 1) Q) := by
  refine broadcastInDim_apply _ _ x (ix2 R Q) (ix2 (0 : Fin 1) Q) fun a => ?_
  match a with
  | ⟨0, _⟩ => rfl
  | ⟨1, _⟩ => rfl
theorem vec_col_apply {α : Type} (v : S4096.Idx → α) (R : Fin 4096) (u : Fin 1) :
    broadcastInDim S4096x1 ![0] bcast_S4096_S4096x1_0 v (ix2 R u) = v (ix1 R) := by
  refine broadcastInDim_apply _ _ v (ix2 R u) (ix1 R) fun a => ?_
  match a with
  | ⟨0, _⟩ => rfl
theorem vec_row_apply {α : Type} (v : S4096.Idx → α) (u : Fin 1) (Q : Fin 4096) :
    broadcastInDim S1x4096 ![1] bcast_S4096_S1x4096_1 v (ix2 u Q) = v (ix1 Q) := by
  refine broadcastInDim_apply _ _ v (ix2 u Q) (ix1 Q) fun a => ?_
  match a with
  | ⟨0, _⟩ => rfl

theorem red1 : S4096x4096.Reduces [(1 : Fin 2)] S4096 := by decide

/-- A row's sum of squares, as the host's reduction along the second axis computes it. -/
theorem rowsq_apply (p : FVec Ideal S4096x4096 .f32) (R : Fin 4096) :
    Host.reduceAdd (mulf p p) (constant S_ .f32 0x00000000#32) reducesTo_S4096x4096_S4096_d1 h_S_ (ix1 R) = 0 + nrm p R := by
  rw [hostReduceAdd_apply, Ideal.hostReduceAdd_single reducesTo_S4096x4096_S4096_d1 red1]
  refine congrArg₂ (· + ·) (by show Ideal.ofBits .f32 0x00000000#32 = 0; exact Ideal.ofBits_zero_f32) ?_
  unfold nrm
  refine Finset.sum_congr rfl fun k _ => ?_
  have e : red1.lift (ix1 R) k = ix2 R k := funext fun c => Fin.ext (by
    match c with
    | ⟨0, _⟩ => rfl
    | ⟨1, _⟩ => rfl)
  rw [e]; rfl

/-- An entry of the Gram matrix of the first array against the second. -/
theorem dot_apply (p1 p2 : FVec Ideal S4096x4096 .f32) (R Q : Fin 4096) :
    Host.dotGeneral dot_S4096x4096_S4096x4096_S4096x4096_1_0_0_1_n_n none p1 (transpose S4096x4096 [1, 0] p2 transposes_S4096x4096_S4096x4096_1_0) (ix2 R Q)
      = ∑ k : Fin 4096, p1 (ix2 R k) * p2 (ix2 Q k) := by
  simp only [Host.dotGeneral]
  refine (Ideal.dotGeneral_apply _ _ _ p1 _ (ix2 R Q)).trans ?_
  refine (Equiv.sum_comp (contrEquiv1 dot_S4096x4096_S4096x4096_S4096x4096_1_0_0_1_n_n 4096 rfl rfl).symm _).symm.trans ?_
  refine Finset.sum_congr rfl fun k _ => ?_
  have hl : dot_S4096x4096_S4096x4096_S4096x4096_1_0_0_1_n_n.lhsIdx (ix2 R Q) ((contrEquiv1 dot_S4096x4096_S4096x4096_S4096x4096_1_0_0_1_n_n 4096 rfl rfl).symm k) = ix2 R k := by
    funext a; apply Fin.ext
    match a with
    | ⟨0, _⟩ => rfl
    | ⟨1, _⟩ => exact (DotDims.lhsIdx_val_of_single _ rfl _ _).trans (contrEquiv1_symm_val _ 4096 rfl rfl k)
  have hr : dot_S4096x4096_S4096x4096_S4096x4096_1_0_0_1_n_n.rhsIdx (ix2 R Q) ((contrEquiv1 dot_S4096x4096_S4096x4096_S4096x4096_1_0_0_1_n_n 4096 rfl rfl).symm k) = ix2 k Q := by
    funext a; apply Fin.ext
    match a with
    | ⟨0, _⟩ => exact (DotDims.rhsIdx_val_of_single _ rfl _ _).trans (contrEquiv1_symm_val _ 4096 rfl rfl k)
    | ⟨1, _⟩ => rfl
  rw [hl, hr, transpose_ix2_apply]

/-- The squared distance between row `R` of the first array and row `Q` of the second, through the expansion. -/
def dd (p1 p2 : S4096x4096.Idx → EReal) (R Q : Fin 4096) : EReal :=
  (nrm p1 R + nrm p2 Q) - two * ∑ k : Fin 4096, p1 (ix2 R k) * p2 (ix2 Q k)

theorem dist_apply (p1 p2 : FVec Ideal S4096x4096 .f32) (R Q : Fin 4096) :
    dist (F := Ideal) p1 p2 (ix2 R Q) = dd p1 p2 R Q := by
  unfold dist dd
  rw [subf_apply, addf_apply, mulf_apply, bc_col_apply, bc_row_apply, vec_col_apply, vec_row_apply, rowsq_apply, rowsq_apply, dot_apply, broadcastInDim_scalar_apply, zero_add, zero_add]
  rfl

/-- The diagonal mask at an index: the two coordinates as 32-bit words, compared. -/
theorem diagMask_apply (R Q : Fin 4096) :
    diagMask (ix2 R Q) = IntOp.cmpi .eq (BitVec.ofNat 32 R.val + 0#32) (BitVec.ofNat 32 Q.val) := rfl

theorem redAll (x : FVec Ideal S4096x4096 .f32) :
    Host.reduceAdd x (constant S_ .f32 0x00000000#32) reducesTo_S4096x4096_S_d0_1 h_S_ ix0 = 0 + ∑ I : S4096x4096.Idx, x I := by
  rw [hostReduceAdd_apply, Ideal.hostReduceAdd_total _ (fun b => b.elim0)]
  exact congrArg (· + _) (by show Ideal.ofBits .f32 0x00000000#32 = 0; exact Ideal.ofBits_zero_f32)

/-- The reference's result, in sums. -/
theorem refOut_apply (p1 p2 : FVec Ideal S4096x4096 .f32) :
    refOut (F := Ideal) p1 p2 ix0
      = Ideal.div (0 + ∑ I : S4096x4096.Idx, sqd p1 p2 I) (Ideal.ofBits .f32 0x45800000#32)
        + Ideal.div (-((0 + ∑ I : S4096x4096.Idx, dist (F := Ideal) p1 p2 I)
            - (0 + ∑ I : S4096x4096.Idx, Scalar.select (diagMask I) (dist (F := Ideal) p1 p2 I) (0 : EReal)))) (Ideal.ofBits .f32 0x4B7FF000#32) := by
  unfold refOut
  rw [addf_apply, hostDivf_apply, hostDivf_apply, redAll]
  show _ + Ideal.div (-(Host.reduceAdd (F := Ideal) _ _ _ _ ix0 - Host.reduceAdd (F := Ideal) _ _ _ _ ix0)) _ = _
  rw [redAll, redAll]
  refine congrArg₂ (· + ·) rfl (congrArg (Ideal.div · _) (congrArg Neg.neg (congrArg₂ (· - ·) rfl (congrArg (0 + ·) (Finset.sum_congr rfl fun I _ => ?_)))))
  show Scalar.select (diagMask I) (dist (F := Ideal) p1 p2 I) (broadcastInDim S4096x4096 ![] bcast_S_S4096x4096 (constant (F := Ideal) S_ .f32 0x00000000#32) I) = _
  rw [broadcastInDim_scalar_apply]
  show Scalar.select _ _ (Ideal.ofBits .f32 0x00000000#32) = _
  rw [Ideal.ofBits_zero_f32]

end Cert.ReferenceIdeal.Hand

end
-- ==== Proof.KI.Val3.lean ====
import proofs.«124657_j17093969838495_2_alg».proof.Proof.KI.Val2
import proofs.«124657_j17093969838495_2_alg».proof.Proof.KI.Alg
import proofs.«124657_j17093969838495_2_alg».proof.Proof.LibColumnRow
import proofs.«124657_j17093969838495_2_alg».proof.Proof.Ref.Val

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! The Gram call's tile sums in terms of the two argument arrays, the three totals the host
    operations divide by the 1024 cells of a tile, and the kernel program's result. -/

open Cert.ReferenceIdeal.Hand (dd diagMask)
open Cert.Lib.ColumnRow

variable (m : (ℓ : Loc nD τ sig) → Buf (Elt Ideal) ℓ) (c : Dev nD)

/-- The two argument arrays, as launched. -/
abbrev A1 : S4096x4096.Idx → EReal := m ((c : Thread nD τ).loc main_arg0)
abbrev A2 : S4096x4096.Idx → EReal := m ((c : Thread nD τ).loc main_arg1)

/-! ## The four operand blocks of a grid point -/

theorem blk1_0 (t : Fin cfg1.N) (r : Fin 1024) (k : Fin 4096) (h : 1024 * (t.val / 16) + r.val < 4096) :
    iblk1 (BV2 m) c 0 t (ix2 r k) = A1 m c (ix2 (⟨1024 * (t.val / 16) + r.val, h⟩ : Fin 4096) k) := by
  show BV2 m c main_v0_3 (((cfg1.win 0).blk t).view.emb (ix2 r k)) = _
  rw [rd_p1]
  refine congrArg (A1 m c) (funext fun a => Fin.ext ?_)
  match a with
  | ⟨0, _⟩ => exact emb1_0_0 t r k
  | ⟨1, _⟩ => exact (emb1_0_1 t r k).trans (show 4096 * 0 + k.val = k.val from by omega)
theorem blk1_1 (t : Fin cfg1.N) (q : Fin 256) (k : Fin 4096) (h : 256 * (t.val % 16) + q.val < 4096) :
    iblk1 (BV2 m) c 1 t (ix2 q k) = A2 m c (ix2 (⟨256 * (t.val % 16) + q.val, h⟩ : Fin 4096) k) := by
  show BV2 m c main_v0_4 (((cfg1.win 1).blk t).view.emb (ix2 q k)) = _
  rw [rd_p2]
  refine congrArg (A2 m c) (funext fun a => Fin.ext ?_)
  match a with
  | ⟨0, _⟩ => exact emb1_1_0 t q k
  | ⟨1, _⟩ => exact (emb1_1_1 t q k).trans (show 4096 * 0 + k.val = k.val from by omega)
theorem blk1_2 (t : Fin cfg1.N) (r : Fin 1024) (u : Fin 1) (h : 1024 * (t.val / 16) + r.val < 4096) :
    iblk1 (BV2 m) c 2 t (ix2 r u) = nrm (A1 m c) ⟨1024 * (t.val / 16) + r.val, h⟩ := by
  show BV2 m c main_v0_0 (((cfg1.win 2).blk t).view.emb (ix2 r u)) = _
  rw [rd_n1]
  unfold G0col
  exact congrArg (nrm (A1 m c)) (Fin.ext (emb1_2_0 t r u))
theorem blk1_3 (t : Fin cfg1.N) (u : Fin 1) (q : Fin 256) (h : 256 * (t.val % 16) + q.val < 4096) :
    iblk1 (BV2 m) c 3 t (ix2 u q) = nrm (A2 m c) ⟨256 * (t.val % 16) + q.val, h⟩ := by
  show BV2 m c main_v3 (((cfg1.win 3).blk t).view.emb (ix2 u q)) = _
  rw [rd_n2]
  have e : ((cfg1.win 3).blk t).view.emb (ix2 u q) = (ix2 (0 : Fin 1) (⟨256 * (t.val % 16) + q.val, h⟩ : Fin 4096) : S1x4096.Idx) := by
    funext a; apply Fin.ext
    match a with
    | ⟨0, _⟩ => exact (emb1_3_0 t u q).trans (show 1 * 0 + u.val = 0 from by have := u.isLt; omega)
    | ⟨1, _⟩ => exact emb1_3_1 t u q
  rw [e, shapeCast_a1_1a_apply]
  rfl

/-! ## The tile sums -/

theorem gram_congr (x0 : FVec Ideal S1024x4096 .bf16) (x1 : FVec Ideal S256x4096 .bf16) (r : Fin 1024) (q : Fin 256) (f g : Fin 4096 → EReal)
    (h0 : ∀ k, x0 (ix2 r k) = f k) (h1 : ∀ k, x1 (ix2 q k) = g k) :
    ∑ k : Fin 4096, x0 (ix2 r k) * x1 (ix2 q k) = ∑ k : Fin 4096, f k * g k :=
  Finset.sum_congr rfl fun k _ => by rw [h0 k, h1 k]

set_option maxHeartbeats 1000000 in
theorem Tpt_eq (t : Fin cfg1.N) (ht : t.val < 64) :
    Tpt (BV2 m) c t = ∑ r : Fin 1024, ∑ q : Fin 256,
      dd (A1 m c) (A2 m c) ⟨1024 * (t.val / 16) + r.val, by omega⟩ ⟨256 * (t.val % 16) + q.val, by omega⟩ := by
  unfold Tpt
  refine Finset.sum_congr rfl fun r _ => ?_
  rw [Fin.sum_univ_one]
  refine Finset.sum_congr rfl fun q _ => ?_
  rw [pay6_apply, blk1_2 m c t r 0 (by omega), blk1_3 m c t 0 q (by omega),
    gram_congr _ _ r q _ _ (fun k => blk1_0 m c t r k (by omega)) (fun k => blk1_1 m c t q k (by omega))]
  rfl

/-- The kernel's diagonal mask is the reference's, read at the tile's place in the whole matrix. -/
theorem mask_eq (t : Fin cfg1.N) (ht : t.val < 64) (r : Fin 1024) (q : Fin 256) :
    k1_pay8 (grid1.coords t) (ix2 r q)
      = diagMask (ix2 (⟨1024 * (t.val / 16) + r.val, by omega⟩ : Fin 4096) (⟨256 * (t.val % 16) + q.val, by omega⟩ : Fin 4096)) := by
  obtain ⟨c0, c1⟩ := coords1 t
  rw [Cert.ReferenceIdeal.Hand.diagMask_apply]
  unfold k1_pay8
  show IntOp.cmpi .eq (iota .tc S1024x256 32 [0] iota_S1024x256_d0_w32 (ix2 r q) + Scalar.muli (BitVec.ofNat 32 (grid1.coords t 0).val) 1024#32)
      (iota .tc S1024x256 32 [1] iota_S1024x256_d1_w32 (ix2 r q) + Scalar.muli (BitVec.ofNat 32 (grid1.coords t 1).val) 256#32) = _
  rw [iota_single_apply, iota_single_apply, c0, c1]
  show IntOp.cmpi .eq (BitVec.ofNat 32 r.val + BitVec.ofNat 32 (t.val / 16) * 1024#32) (BitVec.ofNat 32 q.val + BitVec.ofNat 32 (t.val % 16) * 256#32) = _
  have e1 : BitVec.ofNat 32 r.val + BitVec.ofNat 32 (t.val / 16) * 1024#32 = BitVec.ofNat 32 (1024 * (t.val / 16) + r.val) + 0#32 := by
    rw [BitVec.add_zero, BitVec.ofNat_add, BitVec.ofNat_mul, BitVec.add_comm, BitVec.mul_comm]
  have e2 : BitVec.ofNat 32 q.val + BitVec.ofNat 32 (t.val % 16) * 256#32 = BitVec.ofNat 32 (256 * (t.val % 16) + q.val) := by
    rw [BitVec.ofNat_add, BitVec.ofNat_mul, BitVec.add_comm, BitVec.mul_comm]
  rw [e1, e2]

set_option maxHeartbeats 1000000 in
theorem Upt_eq (t : Fin cfg1.N) (ht : t.val < 64) :
    Upt (BV2 m) c t = ∑ r : Fin 1024, ∑ q : Fin 256,
      Scalar.select (diagMask (ix2 (⟨1024 * (t.val / 16) + r.val, by omega⟩ : Fin 4096) (⟨256 * (t.val % 16) + q.val, by omega⟩ : Fin 4096)))
        (dd (A1 m c) (A2 m c) ⟨1024 * (t.val / 16) + r.val, by omega⟩ ⟨256 * (t.val % 16) + q.val, by omega⟩) (0 : EReal) := by
  unfold Upt
  refine Finset.sum_congr rfl fun r _ => ?_
  rw [Fin.sum_univ_one]
  refine Finset.sum_congr rfl fun q _ => ?_
  rw [mask_eq t ht r q, pay6_apply, blk1_2 m c t r 0 (by omega), blk1_3 m c t 0 q (by omega),
    gram_congr _ _ r q _ _ (fun k => blk1_0 m c t r k (by omega)) (fun k => blk1_1 m c t q k (by omega))]
  rfl

/-- The two coordinates of an index of the whole matrix. -/
abbrev c0 (I : S4096x4096.Idx) : Fin 4096 := ⟨(I 0).val, (I 0).isLt⟩
abbrev c1 (I : S4096x4096.Idx) : Fin 4096 := ⟨(I 1).val, (I 1).isLt⟩
theorem ix2_c (I : S4096x4096.Idx) : (ix2 (c0 I) (c1 I) : S4096x4096.Idx) = I :=
  funext fun a => by
    match a with
    | ⟨0, _⟩ => rfl
    | ⟨1, _⟩ => rfl

/-- A function of a row and a column summed over the 4×16 grid of 1024×256 tiles is its sum over the whole matrix. -/
theorem sum_grid (f : Fin 4096 → Fin 4096 → EReal) :
    ∑ i : Fin 4, ∑ j : Fin 16, ∑ r : Fin 1024, ∑ q : Fin 256,
        f ⟨1024 * i.val + r.val, by omega⟩ ⟨256 * j.val + q.val, by omega⟩
      = ∑ I : S4096x4096.Idx, f (c0 I) (c1 I) := by
  rw [sum_idx2 (fun I : S4096x4096.Idx => f (c0 I) (c1 I)), sum_tiles 4 1024 4096 rfl]
  refine Finset.sum_congr rfl fun i _ => ?_
  rw [Finset.sum_comm]
  refine Finset.sum_congr rfl fun r _ => ?_
  rw [sum_tiles 16 256 4096 rfl]
  all_goals rfl

/-- The sixteen tile sums of row tile `i`, from the natural-number form the accumulation uses. -/
theorem range_TptN (P : ℕ → EReal) (Pf : Fin cfg1.N → EReal) (hP : ∀ n (h : n < cfg1.N), P n = Pf ⟨n, h⟩) (i : Fin 4) :
    ∑ s ∈ Finset.range (15 + 1), P (16 * i.val + s) = ∑ j : Fin 16, Pf ⟨16 * i.val + j.val, by rw [show cfg1.N = 64 from N_1]; omega⟩ := by
  rw [Finset.sum_range]
  exact Finset.sum_congr rfl fun j _ => hP _ _

set_option maxHeartbeats 1000000 in
theorem totalD : ∑ I : S32x128.Idx, G1d (BV2 m) c I
    = ∑ _a : Fin 8, ∑ _b : Fin 128, ∑ I : S4096x4096.Idx, dd (A1 m c) (A2 m c) (c0 I) (c1 I) := by
  rw [sum_idx2, sum_tiles 4 8 32 rfl]
  rw [← sum_grid (dd (A1 m c) (A2 m c))]
  rw [Finset.sum_comm]
  refine Finset.sum_congr rfl fun a _ => ?_
  rw [Finset.sum_comm]
  refine Finset.sum_congr rfl fun b _ => Finset.sum_congr rfl fun i _ => ?_
  unfold G1d
  have e : ((ix2 (⟨8 * i.val + a.val, tile_lt i a⟩ : Fin 32) b : S32x128.Idx) 0).val / 8 = i.val := by
    show (8 * i.val + a.val) / 8 = i.val; omega
  rw [e, range_TptN (TptN (BV2 m) c) (Tpt (BV2 m) c) (fun n h => by unfold TptN; rw [dif_pos h]) i]
  refine Finset.sum_congr rfl fun j _ => ?_
  have hj : (16 * i.val + j.val) / 16 = i.val := by omega
  have hj' : (16 * i.val + j.val) % 16 = j.val := by omega
  rw [Tpt_eq m c _ (by show 16 * i.val + j.val < 64; omega)]
  simp only [hj, hj']

set_option maxHeartbeats 1000000 in
theorem totalT : ∑ I : S32x128.Idx, G1t (BV2 m) c I
    = ∑ _a : Fin 8, ∑ _b : Fin 128, ∑ I : S4096x4096.Idx, Scalar.select (diagMask I) (dd (A1 m c) (A2 m c) (c0 I) (c1 I)) (0 : EReal) := by
  rw [sum_idx2, sum_tiles 4 8 32 rfl]
  have hg := sum_grid (fun R Q => Scalar.select (diagMask (ix2 R Q)) (dd (A1 m c) (A2 m c) R Q) (0 : EReal))
  simp only [ix2_c] at hg
  rw [← hg]
  rw [Finset.sum_comm]
  refine Finset.sum_congr rfl fun a _ => ?_
  rw [Finset.sum_comm]
  refine Finset.sum_congr rfl fun b _ => Finset.sum_congr rfl fun i _ => ?_
  unfold G1t
  have e : ((ix2 (⟨8 * i.val + a.val, tile_lt i a⟩ : Fin 32) b : S32x128.Idx) 0).val / 8 = i.val := by
    show (8 * i.val + a.val) / 8 = i.val; omega
  rw [e, range_TptN (UptN (BV2 m) c) (Upt (BV2 m) c) (fun n h => by unfold UptN; rw [dif_pos h]) i]
  refine Finset.sum_congr rfl fun j _ => ?_
  have hj : (16 * i.val + j.val) / 16 = i.val := by omega
  have hj' : (16 * i.val + j.val) % 16 = j.val := by omega
  rw [Upt_eq m c _ (by show 16 * i.val + j.val < 64; omega)]
  simp only [hj, hj']

set_option maxHeartbeats 1000000 in
theorem totalS : ∑ I : S128x128.Idx, G0sq (A1 m c) (A2 m c) I
    = ∑ _a : Fin 8, ∑ _b : Fin 128, ∑ I : S4096x4096.Idx, sqd (A1 m c) (A2 m c) I := by
  rw [sum_idx2, sum_tiles 16 8 128 rfl]
  rw [sum_idx2 (sqd (A1 m c) (A2 m c)), sum_tiles 16 256 4096 rfl]
  rw [Finset.sum_comm]
  refine Finset.sum_congr rfl fun a _ => ?_
  rw [Finset.sum_comm]
  refine Finset.sum_congr rfl fun b _ => Finset.sum_congr rfl fun T _ => ?_
  unfold G0sq tileSq
  have e : ((ix2 (⟨8 * T.val + a.val, tile_lt T a⟩ : Fin 128) b : S128x128.Idx) 0).val / 8 = T.val := by
    show (8 * T.val + a.val) / 8 = T.val; omega
  simp only [e, Fin.sum_univ_one]

end Cert.KernelIdeal.Hand

end
-- ==== Proof.KI.Final.lean ====
import proofs.«124657_j17093969838495_2_alg».proof.Proof.KI.Val3
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

/-! The kernel program's result is the reference's function of the two argument arrays. -/

open Cert.ReferenceIdeal.Hand (dd diagMask refOut dist refOut_apply dist_apply)

variable (m : (ℓ : Loc nD τ sig) → Buf (Elt Ideal) ℓ) (c : Dev nD)

theorem redAll32 (x : FVec Ideal S32x128 .f32) :
    Host.reduceAdd x (constant S_ .f32 0x00000000#32) reducesTo_S32x128_S_d0_1 h_S_ ix0 = 0 + ∑ I : S32x128.Idx, x I := by
  rw [hostReduceAdd_apply, Ideal.hostReduceAdd_total _ (fun b => b.elim0)]
  exact congrArg (· + _) (by show Ideal.ofBits .f32 0x00000000#32 = 0; exact Ideal.ofBits_zero_f32)
theorem redAll128 (x : FVec Ideal S128x128 .f32) :
    Host.reduceAdd x (constant S_ .f32 0x00000000#32) reducesTo_S128x128_S_d0_1 h_S_ ix0 = 0 + ∑ I : S128x128.Idx, x I := by
  rw [hostReduceAdd_apply, Ideal.hostReduceAdd_total _ (fun b => b.elim0)]
  exact congrArg (· + _) (by show Ideal.ofBits .f32 0x00000000#32 = 0; exact Ideal.ofBits_zero_f32)

theorem kerOut_apply (v2 : FVec Ideal S_ .f32) (sd st : FVec Ideal S32x128 .f32) :
    kerOut v2 sd st ix0
      = Ideal.div (v2 ix0) (Ideal.ofBits .f32 0x45800000#32)
        + Ideal.div (-(Ideal.div (0 + ∑ I : S32x128.Idx, sd I) (Ideal.ofBits .f32 0x44800000#32)
            - Ideal.div (0 + ∑ I : S32x128.Idx, st I) (Ideal.ofBits .f32 0x44800000#32))) (Ideal.ofBits .f32 0x4B7FF000#32) := by
  unfold kerOut
  rw [addf_apply, hostDivf_apply, hostDivf_apply]
  show _ + Ideal.div (-(Host.divf (F := Ideal) _ _ ix0 - Host.divf (F := Ideal) _ _ ix0)) _ = _
  rw [hostDivf_apply, hostDivf_apply, redAll32, redAll32]
  rfl

/-- The result buffer after the kernel program's run holds the reference's function of the arguments. -/
theorem result_eq : B4 m c (Proc.devRef .tc main_v13) = refOut (F := Ideal) (A1 m c) (A2 m c) := by
  funext (j : S_.Idx)
  rw [eq_ix0 j, rd_out, kerOut_apply, refOut_apply, hostDivf_apply, redAll128, totalS, totalD, totalT]
  rw [div1024, div1024, constant_apply, div1024]
  simp only [zero_add]
  have he : ∀ I : S4096x4096.Idx, dist (F := Ideal) (A1 m c) (A2 m c) I = dd (A1 m c) (A2 m c) (c0 I) (c1 I) := fun I =>
    (congrArg (dist (F := Ideal) (A1 m c) (A2 m c)) (ix2_c I).symm).trans (dist_apply _ _ (c0 I) (c1 I))
  simp only [he]

end Cert.KernelIdeal.Hand

end
-- ==== Proof.lean ====
/-
  The contrastive loss of two 4096×4096 arrays `p1`, `p2`: the mean over rows of the squared row distance,
  minus the sum of all squared distances between a row of `p1` and a DIFFERENT row of `p2` divided by the
  number of such pairs, the squared distances taken through the expansion
  `d[i,j] = ‖p1ᵢ‖² + ‖p2ⱼ‖² − 2 ⟨p1ᵢ, p2ⱼ⟩`.
  The kernel computes it with two tiled calls — row statistics over 16 row tiles; the distance matrix over a
  4×16 grid of 1024×256 tiles, each row tile's sum and diagonal sum accumulated along its 16 column tiles —
  and a few host operations; each per-tile total is spread over the 1024 cells of an 8×128 tile and the host
  divides the tiles' sum by 1024.  The reference uses whole-array operations.  At the extended reals both
  are the same finite sums, regrouped: addition there is commutative and associative, and a value added up
  1024 times and divided by 1024 is the value, so no finiteness of the inputs is used.
-/
import proofs.«124657_j17093969838495_2_alg».proof.Defs
import proofs.«124657_j17093969838495_2_alg».proof.Proof.K.Run
import proofs.«124657_j17093969838495_2_alg».proof.Proof.KI.Final
import proofs.«124657_j17093969838495_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end with the reference's function of the (agreeing) argument arrays in their result buffers. -/
theorem algebraic : Cert.algebraic_KernelIdeal_ReferenceIdeal := by
  intro m ρ m' ρ' _ hagree
  refine ⟨fun c => Cert.ReferenceIdeal.Hand.refOut (F := Ideal) (Cert.KernelIdeal.Hand.A1 m c) (Cert.KernelIdeal.Hand.A2 m c), ?_, ?_⟩
  · refine (θ_run Cert.KernelIdeal.defs _ _).mono (fun r h c => ⟨?_, ?_, ?_⟩) (Cert.KernelIdeal.Hand.run (F := Ideal) m ρ)
    · exact (h c _ (Cert.KernelIdeal.Hand.mem_uc Cert.KernelIdeal.main_v13 (by decide))).trans (Cert.KernelIdeal.Hand.result_eq m c)
    · exact (h c _ (Cert.KernelIdeal.Hand.mem_uc Cert.KernelIdeal.main_arg0 (by decide))).trans (Cert.KernelIdeal.Hand.B4_main_arg0 m c)
    · exact (h c _ (Cert.KernelIdeal.Hand.mem_uc Cert.KernelIdeal.main_arg1 (by decide))).trans (Cert.KernelIdeal.Hand.B4_main_arg1 m c)
  · refine (θ_run Cert.ReferenceIdeal.defs _ _).mono (fun _ h c => ⟨(h c).1.trans ?_, (h c).2⟩)
      (Cert.ReferenceIdeal.Hand.run (F := Ideal) m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
